-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S8x128 : Shape := ⟨2, ![8, 128]⟩
abbrev S960x64 : Shape := ⟨2, ![960, 64]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel
  bcast_S_S960x64 : S_.BroadcastsInDim S960x64 (![] : Fin 0 → Fin S960x64.rank)
  reducesTo_S960x64_S_d0_1 : S960x64.ReducesTo [0, 1] S_

variable [Facts]

def fn {F : FTy → Type} [FloatOps F] (main_arg0 : FVec F S8x128x128x64 .f32) (main_arg1 : IVec S8x128 1) (main_arg2 : FVec F S960x64 .f32) : IVec S_ 1 :=
  let main_v0 : FVec F S8x128x128x64 .f32 := Host.absf main_arg0
  let main_cst : FVec F S_ .f32 := constant S_ .f32 0x7F800000#32
  let main_v1 : FVec F S8x128x128x64 .f32 := broadcastInDim S8x128x128x64 ![] bcast_S_S8x128x128x64 main_cst
  let main_v2 : IVec S8x128x128x64 1 := cmpf .olt main_v0 main_v1
  let main_c : IVec S_ 1 := constantI S_ 1 1#1
  let main_v3 : IVec S_ 1 := (fun x v => Host.reduce IntOp.andi x v reducesTo_S8x128x128x64_S_d0_1_2_3 h_S_) main_v2 main_c
  let main_v4 : FVec F S960x64 .f32 := Host.absf main_arg2
  let main_cst_0 : FVec F S_ .f32 := constant S_ .f32 0x7F800000#32
  let main_v5 : FVec F S960x64 .f32 := broadcastInDim S960x64 ![] bcast_S_S960x64 main_cst_0
  let main_v6 : IVec S960x64 1 := cmpf .olt main_v4 main_v5
  let main_c_1 : IVec S_ 1 := constantI S_ 1 1#1
  let main_v7 : IVec S_ 1 := (fun x v => Host.reduce IntOp.andi x v reducesTo_S960x64_S_d0_1 h_S_) main_v6 main_c_1
  let main_v8 : IVec S_ 1 := andi main_v3 main_v7
  main_v8
-- ==== Kernel.lean ====
abbrev S8x128x128x64 : Shape := ⟨4, ![8, 128, 128, 64]⟩
abbrev S8x128 : Shape := ⟨2, ![8, 128]⟩
abbrev S960x64 : Shape := ⟨2, ![960, 64]⟩
abbrev S8x1x128 : Shape := ⟨3, ![8, 1, 128]⟩
abbrev S1x128x128x64 : Shape := ⟨4, ![1, 128, 128, 64]⟩
abbrev S1x1x128 : Shape := ⟨3, ![1, 1, 128]⟩
abbrev S128x128x64 : Shape := ⟨3, ![128, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S128x64 : Shape := ⟨2, ![128, 64]⟩
abbrev S64 : Shape := ⟨1, ![64]⟩
abbrev S1x64 : Shape := ⟨2, ![1, 64]⟩
abbrev S128x1x64 : Shape := ⟨3, ![128, 1, 64]⟩
abbrev S1x128x64 : Shape := ⟨3, ![1, 128, 64]⟩
abbrev S1x1x64 : Shape := ⟨3, ![1, 1, 64]⟩
abbrev S16384x64 : Shape := ⟨2, ![16384, 64]⟩
abbrev S64x64 : Shape := ⟨2, ![64, 64]⟩

abbrev nBuf : Space → Nat
  | .hbm => 6
  | .vmem => 7
  | .smem => 0
  | _ => 0

abbrev bufTy : (tb : Table) → Fin (tcTables nBuf tb) → BufTy
  | .hbm, ⟨0, _⟩ => ⟨S8x128x128x64, .f32⟩
  | .hbm, ⟨1, _⟩ => ⟨S8x128, .i1⟩
  | .hbm, ⟨2, _⟩ => ⟨S960x64, .f32⟩
  | .hbm, ⟨3, _⟩ => ⟨S8x128, .f32⟩
  | .hbm, ⟨4, _⟩ => ⟨S8x1x128, .f32⟩
  | .hbm, ⟨5, _⟩ => ⟨S8x128x128x64, .f32⟩
  | .local _ .vmem, ⟨0, _⟩ => ⟨S1x128x128x64, .f32⟩
  | .local _ .vmem, ⟨1, _⟩ => ⟨S1x128x128x64, .f32⟩
  | .local _ .vmem, ⟨2, _⟩ => ⟨S1x1x128, .f32⟩
  | .local _ .vmem, ⟨3, _⟩ => ⟨S1x1x128, .f32⟩
  | .local _ .vmem, ⟨4, _⟩ => ⟨S960x64, .f32⟩
  | .local _ .vmem, ⟨5, _⟩ => ⟨S1x128x128x64, .f32⟩
  | .local _ .vmem, ⟨6, _⟩ => ⟨S1x128x128x64, .f32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S960x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8x128_S8x1x128_0_2 : S8x128.BroadcastsInDim S8x1x128 (![0, 2] : Fin 2 → Fin S8x1x128.rank)
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  shapeCasts_S128x128_S128x128x1 : S128x128.ShapeCasts S128x128x1
  broadcasts_S128x128x1_S128x128x64 : S128x128x1.Broadcasts S128x128x64
  transposes_S128x128x64_p1_0_2_S128x128x64 : S128x128x64.Transposes [1, 0, 2] S128x128x64
  iota_S128x128x64_d0_w32 : S128x128x64.Iotas .tc 32 [0]
  iota_S128x128x64_d1_w32 : S128x128x64.Iotas .tc 32 [1]
  natLt_1_32 : 1 < 32
  reduces_S128x128x64_S128x64 : S128x128x64.Reduces [1] S128x64
  reduces_S128x128x64_S128x64_2 : S128x128x64.Reduces [0] S128x64
  reduces_S128x64_S64 : S128x64.Reduces [0] S64
  shapeCasts_S64_S1x64 : S64.ShapeCasts S1x64
  shapeCasts_S128x64_S128x1x64 : S128x64.ShapeCasts S128x1x64
  shapeCasts_S128x64_S1x128x64 : S128x64.ShapeCasts S1x128x64
  shapeCasts_S1x64_S1x1x64 : S1x64.ShapeCasts S1x1x64
  broadcasts_S128x1x64_S128x128x64 : S128x1x64.Broadcasts S128x128x64
  broadcasts_S1x128x64_S128x128x64 : S1x128x64.Broadcasts S128x128x64
  broadcasts_S1x1x64_S128x1x64 : S1x1x64.Broadcasts S128x1x64
  shapeCasts_S128x128x64_S16384x64 : S128x128x64.ShapeCasts S16384x64
  bitsLt_bf16_f32 : FTy.bits .bf16 < FTy.bits .f32
  inb_S960x64_S64x64_0_0 : ∀ a, (![0, 0] : Fin 2 → Nat) a + S64x64.size a ≤ S960x64.size a
  h_S64x64 : 0 < S64x64.numel
  shapeCasts_S16384x64_S128x128x64 : S16384x64.ShapeCasts S128x128x64
  inb_S960x64_S64x64_64_0 : ∀ a, (![64, 0] : Fin 2 → Nat) a + S64x64.size a ≤ S960x64.size a
  inb_S960x64_S64x64_128_0 : ∀ a, (![128, 0] : Fin 2 → Nat) a + S64x64.size a ≤ S960x64.size a
  inb_S960x64_S64x64_192_0 : ∀ a, (![192, 0] : Fin 2 → Nat) a + S64x64.size a ≤ S960x64.size a
  inb_S960x64_S64x64_256_0 : ∀ a, (![256, 0] : Fin 2 → Nat) a + S64x64.size a ≤ S960x64.size a
  inb_S960x64_S64x64_320_0 : ∀ a, (![320, 0] : Fin 2 → Nat) a + S64x64.size a ≤ S960x64.size a
  inb_S960x64_S64x64_384_0 : ∀ a, (![384, 0] : Fin 2 → Nat) a + S64x64.size a ≤ S960x64.size a
  inb_S960x64_S64x64_448_0 : ∀ a, (![448, 0] : Fin 2 → Nat) a + S64x64.size a ≤ S960x64.size a
  inb_S960x64_S64x64_512_0 : ∀ a, (![512, 0] : Fin 2 → Nat) a + S64x64.size a ≤ S960x64.size a
  inb_S960x64_S64x64_576_0 : ∀ a, (![576, 0] : Fin 2 → Nat) a + S64x64.size a ≤ S960x64.size a
  inb_S960x64_S64x64_640_0 : ∀ a, (![640, 0] : Fin 2 → Nat) a + S64x64.size a ≤ S960x64.size a
  inb_S960x64_S64x64_704_0 : ∀ a, (![704, 0] : Fin 2 → Nat) a + S64x64.size a ≤ S960x64.size a
  inb_S960x64_S64x64_768_0 : ∀ a, (![768, 0] : Fin 2 → Nat) a + S64x64.size a ≤ S960x64.size a
  inb_S960x64_S64x64_832_0 : ∀ a, (![832, 0] : Fin 2 → Nat) a + S64x64.size a ≤ S960x64.size a
  inb_S960x64_S64x64_896_0 : ∀ a, (![896, 0] : Fin 2 → Nat) a + S64x64.size a ≤ S960x64.size a
  shapeCasts_S128x128x64_S1x128x128x64 : S128x128x64.ShapeCasts S1x128x128x64
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S8x128x128x64.size a
  hwx0_0 : ∀ i : grid0.Coords, EltTy.bits .f32 = 32 ∨ (Rect.block (s := S8x128x128x64) S1x128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S8x1x128.size a
  hwx0_1 : ∀ i : grid0.Coords, EltTy.bits .f32 = 32 ∨ (Rect.block (s := S8x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S960x64.size a ≤ S960x64.size a
  hwx0_2 : ∀ i : grid0.Coords, EltTy.bits .f32 = 32 ∨ (Rect.block (s := S960x64) S960x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128x64.size a ≤ S8x128x128x64.size a
  hwx0_3 : ∀ i : grid0.Coords, EltTy.bits .f32 = 32 ∨ (Rect.block (s := S8x128x128x64) S1x128x128x64.size (cc0_transform_3 i) (hinb0_3 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S960x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S8x128 : Shape := ⟨2, ![8, 128]⟩
abbrev S960x64 : Shape := ⟨2, ![960, 64]⟩
abbrev S8x128x1 : Shape := ⟨3, ![8, 128, 1]⟩
abbrev S8x1x128 : Shape := ⟨3, ![8, 1, 128]⟩
abbrev S8x128x128 : Shape := ⟨3, ![8, 128, 128]⟩
abbrev S8x128x128x1 : Shape := ⟨4, ![8, 128, 128, 1]⟩
abbrev S128x128 : Shape := ⟨2, ![128, 128]⟩
abbrev S_ : Shape := ⟨0, ![]⟩
abbrev S1x128x128x1 : Shape := ⟨4, ![1, 128, 128, 1]⟩
abbrev S8x128x64 : Shape := ⟨3, ![8, 128, 64]⟩
abbrev S8x64 : Shape := ⟨2, ![8, 64]⟩
abbrev S8x128x1x64 : Shape := ⟨4, ![8, 128, 1, 64]⟩
abbrev S8x1x128x64 : Shape := ⟨4, ![8, 1, 128, 64]⟩
abbrev S8x1x64 : Shape := ⟨3, ![8, 1, 64]⟩
abbrev S8x1x1x64 : Shape := ⟨4, ![8, 1, 1, 64]⟩
abbrev S8x128x128x960 : Shape := ⟨4, ![8, 128, 128, 960]⟩

abbrev nBuf : Space → Nat
  | .hbm => 132
  | .vmem => 0
  | .smem => 0
  | _ => 0

abbrev hbmTy0_0 (i : Nat) : BufTy := match i % 128 with
  | 0 => ⟨S8x128x128x64, .f32⟩
  | 1 => ⟨S8x128, .i1⟩
  | 2 => ⟨S960x64, .f32⟩
  | 3 => ⟨S8x128, .f32⟩
  | 4 => ⟨S8x128x1, .f32⟩
  | 5 => ⟨S8x1x128, .f32⟩
  | 6 => ⟨S8x128x128, .f32⟩
  | 7 => ⟨S8x128x128, .f32⟩
  | 8 => ⟨S8x128x128, .f32⟩
  | 9 => ⟨S8x128x128x1, .f32⟩
  | 10 => ⟨S8x128x128x64, .f32⟩
  | 11 => ⟨S8x128x128x64, .f32⟩
  | 12 => ⟨S8x128x128x64, .f32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i1⟩
  | 19 => ⟨S128x128, .f32⟩
  | 20 => ⟨S1x128x128x1, .f32⟩
  | 21 => ⟨S_, .f32⟩
  | 22 => ⟨S128x128, .f32⟩
  | 23 => ⟨S128x128, .f32⟩
  | 24 => ⟨S1x128x128x1, .f32⟩
  | 25 => ⟨S128x128, .i32⟩
  | 26 => ⟨S128x128, .i32⟩
  | 27 => ⟨S128x128, .i1⟩
  | 28 => ⟨S8x128x128x64, .i1⟩
  | 29 => ⟨S_, .f32⟩
  | 30 => ⟨S8x128x128x64, .f32⟩
  | 31 => ⟨S8x128x128x64, .f32⟩
  | 32 => ⟨S_, .f32⟩
  | 33 => ⟨S8x128x64, .f32⟩
  | 34 => ⟨S_, .f32⟩
  | 35 => ⟨S8x128x64, .f32⟩
  | 36 => ⟨S8x128x64, .f32⟩
  | 37 => ⟨S_, .f32⟩
  | 38 => ⟨S8x128x64, .f32⟩
  | 39 => ⟨S8x128x64, .f32⟩
  | 40 => ⟨S_, .f32⟩
  | 41 => ⟨S8x64, .f32⟩
  | 42 => ⟨S_, .f32⟩
  | 43 => ⟨S8x64, .f32⟩
  | 44 => ⟨S8x64, .f32⟩
  | 45 => ⟨S8x128x128x64, .f32⟩
  | 46 => ⟨S8x128x128x64, .f32⟩
  | 47 => ⟨S8x128x128x64, .f32⟩
  | 48 => ⟨S8x128x128x64, .f32⟩
  | 49 => ⟨S8x128x128x64, .f32⟩
  | 50 => ⟨S8x128x128x64, .f32⟩
  | 51 => ⟨S8x128x1x64, .f32⟩
  | 52 => ⟨S8x128x128x64, .f32⟩
  | 53 => ⟨S8x128x128x64, .f32⟩
  | 54 => ⟨S8x128x128x64, .f32⟩
  | 55 => ⟨S8x1x128x64, .f32⟩
  | 56 => ⟨S8x128x128x64, .f32⟩
  | 57 => ⟨S8x128x128x64, .f32⟩
  | 58 => ⟨S8x128x128x64, .f32⟩
  | 59 => ⟨S8x128x1x64, .f32⟩
  | 60 => ⟨S8x128x128x64, .f32⟩
  | 61 => ⟨S8x128x128x64, .f32⟩
  | 62 => ⟨S8x128x128x64, .f32⟩
  | 63 => ⟨S8x128x1x64, .f32⟩
  | 64 => ⟨S8x128x128x64, .f32⟩
  | 65 => ⟨S8x128x128x64, .f32⟩
  | 66 => ⟨S8x128x128x64, .f32⟩
  | 67 => ⟨S8x1x128x64, .f32⟩
  | 68 => ⟨S8x128x128x64, .f32⟩
  | 69 => ⟨S8x128x128x64, .f32⟩
  | 70 => ⟨S8x128x128x64, .f32⟩
  | 71 => ⟨S8x128x128x64, .f32⟩
  | 72 => ⟨S8x128x1x64, .f32⟩
  | 73 => ⟨S8x128x128x64, .f32⟩
  | 74 => ⟨S8x128x128x64, .f32⟩
  | 75 => ⟨S8x128x128x64, .f32⟩
  | 76 => ⟨S8x128x128x64, .f32⟩
  | 77 => ⟨S8x1x128x64, .f32⟩
  | 78 => ⟨S8x128x128x64, .f32⟩
  | 79 => ⟨S8x128x128x64, .f32⟩
  | 80 => ⟨S8x128x128x64, .f32⟩
  | 81 => ⟨S8x128x128x64, .f32⟩
  | 82 => ⟨S8x128x1x64, .f32⟩
  | 83 => ⟨S8x128x128x64, .f32⟩
  | 84 => ⟨S8x128x128x64, .f32⟩
  | 85 => ⟨S8x128x128x64, .f32⟩
  | 86 => ⟨S8x128x128x64, .f32⟩
  | 87 => ⟨S8x1x64, .f32⟩
  | 88 => ⟨S8x128x64, .f32⟩
  | 89 => ⟨S8x128x64, .f32⟩
  | 90 => ⟨S8x128x1x64, .f32⟩
  | 91 => ⟨S8x128x128x64, .f32⟩
  | 92 => ⟨S8x128x128x64, .f32⟩
  | 93 => ⟨S8x128x128x64, .f32⟩
  | 94 => ⟨S8x1x64, .f32⟩
  | 95 => ⟨S8x128x64, .f32⟩
  | 96 => ⟨S8x128x64, .f32⟩
  | 97 => ⟨S8x128x64, .f32⟩
  | 98 => ⟨S8x128x1x64, .f32⟩
  | 99 => ⟨S8x128x128x64, .f32⟩
  | 100 => ⟨S8x128x128x64, .f32⟩
  | 101 => ⟨S8x128x128x64, .f32⟩
  | 102 => ⟨S8x1x1x64, .f32⟩
  | 103 => ⟨S8x128x1x64, .f32⟩
  | 104 => ⟨S8x128x1x64, .f32⟩
  | 105 => ⟨S8x128x1x64, .f32⟩
  | 106 => ⟨S8x1x128x64, .f32⟩
  | 107 => ⟨S8x128x128x64, .f32⟩
  | 108 => ⟨S8x128x128x64, .f32⟩
  | 109 => ⟨S8x128x128x64, .f32⟩
  | 110 => ⟨S8x128x128x64, .f32⟩
  | 111 => ⟨S8x128x128x64, .f32⟩
  | 112 => ⟨S8x1x1x64, .f32⟩
  | 113 => ⟨S8x128x1x64, .f32⟩
  | 114 => ⟨S8x128x1x64, .f32⟩
  | 115 => ⟨S8x128x1x64, .f32⟩
  | 116 => ⟨S8x1x128x64, .f32⟩
  | 117 => ⟨S8x128x128x64, .f32⟩
  | 118 => ⟨S8x128x128x64, .f32⟩
  | 119 => ⟨S8x128x128x64, .f32⟩
  | 120 => ⟨S8x128x1x64, .f32⟩
  | 121 => ⟨S8x128x128x64, .f32⟩
  | 122 => ⟨S8x128x128x64, .f32⟩
  | 123 => ⟨S8x1x128x64, .f32⟩
  | 124 => ⟨S8x128x128x64, .f32⟩
  | 125 => ⟨S8x128x128x64, .f32⟩
  | 126 => ⟨S8x128x128x64, .f32⟩
  | 127 => ⟨S8x128x128x64, .f32⟩
  | _ => ⟨S8x128x128x64, .f32⟩

abbrev hbmTy0_1 (i : Nat) : BufTy := match i % 128 with
  | 0 => ⟨S8x128x128x64, .f32⟩
  | 1 => ⟨S8x128x128x64, .f32⟩
  | 2 => ⟨S8x128x128x960, .f32⟩
  | 3 => ⟨S8x128x128x64, .f32⟩
  | _ => ⟨S8x128x128x64, .f32⟩

abbrev hbmTy (i : Nat) : BufTy := match i / 128 with
  | 0 => hbmTy0_0 i
  | 1 => hbmTy0_1 i
  | _ => ⟨S8x128x128x64, .f32⟩

abbrev bufTy : (tb : Table) → Fin (tcTables nBuf tb) → BufTy
  | .hbm, ⟨i, _⟩ => hbmTy i
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩

abbrev nD : Nat := 1
abbrev τ : Topo := Topo.v7x

variable {F : FTy → Type} [FloatOps F]

class Facts₀ : Prop where
  bcast_S8x128_S8x128x1_0_1 : S8x128.BroadcastsInDim S8x128x1 (![0, 1] : Fin 2 → Fin S8x128x1.rank)
  bcast_S8x128_S8x1x128_0_2 : S8x128.BroadcastsInDim S8x1x128 (![0, 2] : Fin 2 → Fin S8x1x128.rank)
  bcast_S8x128x1_S8x128x128_0_1_2 : S8x128x1.BroadcastsInDim S8x128x128 (![0, 1, 2] : Fin 3 → Fin S8x128x128.rank)
  bcast_S8x1x128_S8x128x128_0_1_2 : S8x1x128.BroadcastsInDim S8x128x128 (![0, 1, 2] : Fin 3 → Fin S8x128x128.rank)
  bcast_S8x128x128_S8x128x128x1_0_1_2 : S8x128x128.BroadcastsInDim S8x128x128x1 (![0, 1, 2] : Fin 3 → Fin S8x128x128x1.rank)
  bcast_S8x128x128x1_S8x128x128x64_0_1_2_3 : S8x128x128x1.BroadcastsInDim S8x128x128x64 (![0, 1, 2, 3] : Fin 4 → Fin S8x128x128x64.rank)
  transposes_S8x128x128x64_S8x128x128x64_0_2_1_3 : S8x128x128x64.Transposes [0, 2, 1, 3] S8x128x128x64
  bcast_S_S128x128 : S_.BroadcastsInDim S128x128 (![] : Fin 0 → Fin S128x128.rank)
  bcast_S128x128_S1x128x128x1_1_2 : S128x128.BroadcastsInDim S1x128x128x1 (![1, 2] : Fin 2 → Fin S1x128x128x1.rank)
  bcast_S128x128_S8x128x128x64_1_2 : S128x128.BroadcastsInDim S8x128x128x64 (![1, 2] : Fin 2 → Fin S8x128x128x64.rank)
  bcast_S_S8x128x128x64 : S_.BroadcastsInDim S8x128x128x64 (![] : Fin 0 → Fin S8x128x128x64.rank)
  reducesTo_S8x128x128x64_S8x128x64_d1 : S8x128x128x64.ReducesTo [1] S8x128x64
  h_S_ : 0 < S_.numel
  reducesTo_S8x128x128x64_S8x128x64_d2 : S8x128x128x64.ReducesTo [2] S8x128x64
  reducesTo_S8x128x64_S8x64_d1 : S8x128x64.ReducesTo [1] S8x64
  reducesTo_S8x128x128x64_S8x64_d1_2 : S8x128x128x64.ReducesTo [1, 2] S8x64
  bcast_S1x128x128x1_S8x128x128x64_0_1_2_3 : S1x128x128x1.BroadcastsInDim S8x128x128x64 (![0, 1, 2, 3] : Fin 4 → Fin S8x128x128x64.rank)
  bcast_S8x128x64_S8x128x1x64_0_1_3 : S8x128x64.BroadcastsInDim S8x128x1x64 (![0, 1, 3] : Fin 3 → Fin S8x128x1x64.rank)
  bcast_S8x128x1x64_S8x128x128x64_0_1_2_3 : S8x128x1x64.BroadcastsInDim S8x128x128x64 (![0, 1, 2, 3] : Fin 4 → Fin S8x128x128x64.rank)
  bcast_S8x128x64_S8x1x128x64_0_2_3 : S8x128x64.BroadcastsInDim S8x1x128x64 (![0, 2, 3] : Fin 3 → Fin S8x1x128x64.rank)
  bcast_S8x1x128x64_S8x128x128x64_0_1_2_3 : S8x1x128x64.BroadcastsInDim S8x128x128x64 (![0, 1, 2, 3] : Fin 4 → Fin S8x128x128x64.rank)
  bcast_S8x64_S8x1x64_0_2 : S8x64.BroadcastsInDim S8x1x64 (![0, 2] : Fin 2 → Fin S8x1x64.rank)
  bcast_S8x1x64_S8x128x64_0_1_2 : S8x1x64.BroadcastsInDim S8x128x64 (![0, 1, 2] : Fin 3 → Fin S8x128x64.rank)
  bcast_S8x64_S8x1x1x64_0_3 : S8x64.BroadcastsInDim S8x1x1x64 (![0, 3] : Fin 2 → Fin S8x1x1x64.rank)
  bcast_S8x1x1x64_S8x128x1x64_0_1_2_3 : S8x1x1x64.BroadcastsInDim S8x128x1x64 (![0, 1, 2, 3] : Fin 4 → Fin S8x128x1x64.rank)
  concatenates_S8x128x128x64_S8x128x128x64_S8x128x128x64_S8x128x128x64_S8x128x128x64_S8x128x128x64_S8x128x128x64_S8x128x128x64_S8x128x128x64_S8x128x128x64_S8x128x128x64_S8x128x128x64_S8x128x128x64_S8x128x128x64_S8x128x128x64_S8x128x128x960_d3 : Shape.Concatenates [S8x128x128x64, S8x128x128x64, S8x128x128x64, S8x128x128x64, S8x128x128x64, S8x128x128x64, S8x128x128x64, S8x128x128x64, S8x128x128x64, S8x128x128x64, S8x128x128x64, S8x128x128x64, S8x128x128x64, S8x128x128x64, S8x128x128x64] S8x128x128x960 3
  dot_S8x128x128x960_S960x64_S8x128x128x64_3_0_012_1_n_n_wf : DotDims.WF S8x128x128x960 S960x64 S8x128x128x64 [3] [0] [0, 1, 2] [1] [] []

variable [Facts₀]

def dot_S8x128x128x960_S960x64_S8x128x128x64_3_0_012_1_n_n : DotDims S8x128x128x960 S960x64 S8x128x128x64 where
  lhsContracting := [3]
  rhsContracting := [0]
  lhsNonContracting := [0, 1, 2]
  rhsNonContracting := [1]
  lhsBatch := []
  rhsBatch := []
  wf := dot_S8x128x128x960_S960x64_S8x128x128x64_3_0_012_1_n_n_wf

class Facts : Prop extends Facts₀ where

variable [Facts]
-- ==== Proof.LibUnitAxes.lean ====
/-
  Arrays of three axes with unit axes added, dropped or spread, and sums along one of their axes, read at an entry,
  for any sizes.

  Row-major order fixes what each re-shaping does to an entry: a unit axis put in or taken out moves nothing, so the
  entry at `(i, j)` of an `a × b` table is the entry `(i, 0, j)` of the same table kept as `a × 1 × b`; a table whose
  middle (or first, or last) axis has one entry, spread along that axis, shows that one entry at every position; the
  first two axes of an `a × b × c` array folded into one put entry `(i, j, d)` at row `i * b + j`; and swapping the
  first two axes swaps the first two coordinates. A sum along one axis of a three-axis array is the sum over that
  axis's coordinate with the other two held.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.UnitAxes

open Idealize.ShloMosaic Idealize.ShloMosaic.ValueIdx

variable {α : Type}

/-! ## Unit axes put in and taken out -/

/-- A `1 × 1 × a` array flattened to a length-`a` vector reads, at `i`, the array's entry `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `a × b` table kept as `a × b × 1` reads, at `(i, j, u)`, the table at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `a × b` table kept as `a × 1 × b` reads, at `(i, u, j)`, the table at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The first two axes of an `a × b × c` array folded into one of `n = a * b` rows: row `i * b + j` at `d` is the array
    at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- And back: an `n × c` table of `n = a * b` rows unfolded to `a × b × c` reads, at `(i, j, d)`, row `i * b + j` at `d`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-! ## One entry spread along an axis -/

/-- An `a × 1` column spread to `a × b` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `a × b × 1` array spread to `a × b × c` reads, at `(i, j, d)`, the entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `a × 1 × c` array spread to `a × b × c` reads, at `(i, j, d)`, the entry `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `1 × b × c` array spread to `a × b × c` reads, at `(i, j, d)`, the entry `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-! ## The first two axes swapped -/

/-- An `a × b × c` array with its first two axes swapped reads, at `(j, i, d)`, the array at `(i, j, d)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun ax => match ax with | ⟨0, _⟩ => rfl | ⟨1, _⟩ => rfl | ⟨2, _⟩ => rfl

/-! ## Sums along one axis -/

/-- The index of an `a × b × c` array over `(i, d)` with the middle coordinate `k` put back. -/
theorem lift_mid {a b c : ℕ} (h : (⟨3, ![a, b, c]⟩ : Shape).Reduces [1] ⟨2, ![a, c]⟩) (i : Fin a) (d : Fin c) (k : Fin b) :
    h.lift (ix2 i d) k = ix3 i k d := by
  funext ax; apply Fin.ext
  match ax with
  | ⟨0, _⟩ => rfl
  | ⟨1, _⟩ => rfl
  | ⟨2, _⟩ => rfl

/-- The index of an `a × b × c` array over `(j, d)` with the first coordinate `k` put back. -/
theorem lift_first {a b c : ℕ} (h : (⟨3, ![a, b, c]⟩ : Shape).Reduces [0] ⟨2, ![b, c]⟩) (j : Fin b) (d : Fin c) (k : Fin a) :
    h.lift (ix2 j d) k = ix3 k j d := by
  funext ax; apply Fin.ext
  match ax with
  | ⟨0, _⟩ => rfl
  | ⟨1, _⟩ => rfl
  | ⟨2, _⟩ => rfl

/-- The index of an `a × c` table over `d` with the row `k` put back. -/
theorem lift_rows {a c : ℕ} (h : (⟨2, ![a, c]⟩ : Shape).Reduces [0] ⟨1, ![c]⟩) (d : Fin c) (k : Fin a) :
    h.lift (ix1 d) k = ix2 k d := by
  funext ax; apply Fin.ext
  match ax with
  | ⟨0, _⟩ => rfl
  | ⟨1, _⟩ => rfl

/-- An f32 sum along the middle axis of an `a × b × c` array, from the zero word, is at `(i, d)` the sum over `k` of
    the entries `(i, k, d)`. -/
theorem sumMid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (d : Fin c) :
    multiReduction .add [1] ⟨2, ![a, c]⟩ src 0x00000000#32 h hφ hacc (ix2 i d) = ∑ k : Fin b, src (ix3 i k d) :=
  (Ideal.multiReduction_add_single src 0x00000000#32 h hφ hacc (ix2 i d)).trans
    (Finset.sum_congr rfl fun k _ => congrArg src (lift_mid h i d k))

/-- An f32 sum along the first axis of an `a × b × c` array, from the zero word, is at `(j, d)` the sum over `k` of
    the entries `(k, j, d)`. -/
theorem sumFirst_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (j : Fin b) (d : Fin c) :
    multiReduction .add [0] ⟨2, ![b, c]⟩ src 0x00000000#32 h hφ hacc (ix2 j d) = ∑ k : Fin a, src (ix3 k j d) :=
  (Ideal.multiReduction_add_single src 0x00000000#32 h hφ hacc (ix2 j d)).trans
    (Finset.sum_congr rfl fun k _ => congrArg src (lift_first h j d k))

/-- An f32 sum down the rows of an `a × c` table, from the zero word, is at `d` the sum over `k` of the entries `(k, d)`. -/
theorem sumRows_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = FKind.add.neutral .f32 hφ) (d : Fin c) :
    multiReduction .add [0] ⟨1, ![c]⟩ src 0x00000000#32 h hφ hacc (ix1 d) = ∑ k : Fin a, src (ix2 k d) :=
  (Ideal.multiReduction_add_single src 0x00000000#32 h hφ hacc (ix1 d)).trans
    (Finset.sum_congr rfl fun k _ => congrArg src (lift_rows h d k))

end Cert.Lib.UnitAxes

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.LibEqSelector.lean ====
/-
  The equality flag of two small numbers, read as a float and as the driver of a select.

  Two naturals below `2^32` written as 32-bit words compare equal exactly when they are equal. A kernel widens that
  one-bit flag to 32 bits and converts it, signed, to a float; a host program converts the one-bit flag, unsigned; either
  way the float is `1` when the numbers agree and `0` when they do not, as an extended real. A select driven by the flag
  picks by the numbers' equality. (Adding the zero word to one of the words first changes nothing.)
-/
import Idealize.ShloMosaic.PureOps.Ideal
import Idealize.ShloMosaic.Lib.ValueIdx
import proofs.«122922_j17351667876255_2_alg».proof.Proof.LibWords

noncomputable section

namespace Cert.Lib.EqSelector

open Idealize.ShloMosaic Idealize.ShloMosaic.ValueIdx Idealize.ShloMosaic.Words

/-- The equality flag of two words, widened to 32 bits and converted as a signed integer, is `1` or `0` by the
    numbers' equality. -/
theorem sitofp_extui_cmpi_eq {n m : ℕ} (hn : n < 2 ^ 32) (hm : m < 2 ^ 32) :
    FloatOps.sitofp (F := Ideal) .f32 ((IntOp.cmpi .eq (BitVec.ofNat 32 n) (BitVec.ofNat 32 m)).setWidth 32)
      = if n = m then (1 : EReal) else 0 := by
  rw [cmpi_eq_ofNat hn hm]
  split
  · show (((((1#1 : BitVec 1).setWidth 32).toInt : ℝ)) : EReal) = 1
    have e : ((1#1 : BitVec 1).setWidth 32).toInt = 1 := by decide
    rw [e]; simp
  · show (((((0#1 : BitVec 1).setWidth 32).toInt : ℝ)) : EReal) = 0
    have e : ((0#1 : BitVec 1).setWidth 32).toInt = 0 := by decide
    rw [e]; simp

/-- The equality flag of two words (the zero word added to the first), converted as an unsigned integer, is `1` or `0`
    by the numbers' equality. -/
theorem uitofp_cmpi_eq_add_zero {n m : ℕ} (hn : n < 2 ^ 32) (hm : m < 2 ^ 32) :
    FloatOps.uitofp (F := Ideal) .f32 (IntOp.cmpi .eq (IntOp.addi (BitVec.ofNat 32 n) 0#32) (BitVec.ofNat 32 m))
      = if n = m then (1 : EReal) else 0 := by
  have h0 : IntOp.addi (BitVec.ofNat 32 n) 0#32 = BitVec.ofNat 32 n := BitVec.add_zero _
  rw [h0, cmpi_eq_ofNat hn hm]
  split
  · show ((((1#1 : BitVec 1).toNat : ℝ)) : EReal) = 1
    simp
  · show ((((0#1 : BitVec 1).toNat : ℝ)) : EReal) = 0
    simp

/-- A select driven by the equality flag of two words picks by the numbers' equality. -/
theorem select_cmpi_eq {α : Type} {n m : ℕ} (hn : n < 2 ^ 32) (hm : m < 2 ^ 32) (x y : α) :
    Scalar.select (IntOp.cmpi .eq (BitVec.ofNat 32 n) (BitVec.ofNat 32 m)) x y = if n = m then x else y := by
  rw [cmpi_eq_ofNat hn hm]
  split
  · exact select_one x y
  · exact select_zero x y

end Cert.Lib.EqSelector

end
-- ==== Proof.Layer.lean ====
/-
  The fifteen-term equivariant layer on a square array of feature vectors, as one function of its inputs.

  Fix one batch element: an `n × n` array `a` of `D`-vectors (`n = 128`, `D = 64`), a 0/1 weight `μ` per node, and a
  `15·D × D` matrix `W`. With `A i j = a i j · (μ i · μ j)` the masked array, the layer forms from `A` its diagonal
  `A i i`, its row and column sums without the diagonal entry, the sum of the diagonal (the trace) and the sum of all
  off-diagonal entries, and from these fifteen arrays `term t` — each either supported on the diagonal (a factor
  `eye i j`) or off it (a factor `1 - eye i j`). The result at `(i, j, o)` contracts the fifteen arrays, set side by side
  along the feature axis, with `W`: the sum over `t < 15` and `d < D` of `term t i j d · W (t·D + d) o`.

  Nothing here needs the entries to be finite: only the order and grouping of sums change between the two programs,
  and a sum of products with `eye` keeps its one diagonal term because `x · 0 = 0` and `x · 1 = x` on every extended real.
-/
import Mathlib.Algebra.BigOperators.Fin
import Idealize.ShloMosaic.PureOps.Ideal
import Idealize.ShloMosaic.Lib.ValueIdx

noncomputable section

open scoped BigOperators

namespace Cert.Layer

open Idealize.ShloMosaic Idealize.ShloMosaic.ValueIdx

/-- The word `0x3F800000` read as an extended real (the number one; it is never evaluated: both programs subtract the
    diagonal selector from the same word). -/
def one : EReal := Ideal.ofBits .f32 0x3F800000#32

/-- The diagonal selector: `1` where the two node indices agree, `0` elsewhere. -/
def eye (i j : Fin 128) : EReal := if i.val = j.val then 1 else 0

/-- The off-diagonal selector. -/
def off (i j : Fin 128) : EReal := one - eye i j

theorem eye_self (i : Fin 128) : eye i i = 1 := if_pos rfl

theorem eye_of_ne {i j : Fin 128} (h : i ≠ j) : eye i j = 0 := if_neg fun e => h (Fin.ext e)

/-- A sum of products with the diagonal selector keeps its one diagonal term. -/
theorem sum_mul_eye (f : Fin 128 → EReal) (i : Fin 128) : ∑ k, f k * eye i k = f i := by
  rw [Finset.sum_eq_single i (fun k _ hk => by rw [eye_of_ne (Ne.symm hk), mul_zero])
    (fun h => absurd (Finset.mem_univ i) h), eye_self, mul_one]

/-- A sum whose terms off the diagonal position are zero keeps its one diagonal term. -/
theorem sum_ite_val (f : Fin 128 → EReal) (i : Fin 128) : ∑ k, (if k.val = i.val then f k else 0) = f i := by
  rw [Finset.sum_eq_single i (fun k _ hk => if_neg fun e => hk (Fin.ext e))
    (fun h => absurd (Finset.mem_univ i) h), if_pos rfl]

section Terms

variable (a : Fin 128 → Fin 128 → Fin 64 → EReal) (μ : Fin 128 → EReal)

/-- The masked array: a pair of nodes counts when both nodes do. -/
def masked (i j : Fin 128) (d : Fin 64) : EReal := a i j d * (μ i * μ j)

/-- The diagonal of the masked array. -/
def diag (i : Fin 128) (d : Fin 64) : EReal := masked a μ i i d

/-- Row `i`'s sum without its diagonal entry. -/
def rowOff (i : Fin 128) (d : Fin 64) : EReal := (∑ k, masked a μ i k d) - diag a μ i d

/-- Column `i`'s sum without its diagonal entry. -/
def colOff (i : Fin 128) (d : Fin 64) : EReal := (∑ k, masked a μ k i d) - diag a μ i d

/-- The sum of the diagonal. -/
def trace (d : Fin 64) : EReal := ∑ k, diag a μ k d

/-- The sum of all entries off the diagonal: column by column, then over the columns, less the trace. -/
def offSum (d : Fin 64) : EReal := (∑ l, ∑ k, masked a μ k l d) - trace a μ d

/-- The fifteen arrays, in the order in which they meet the fifteen `D`-row slices of `W`. -/
def term (t : Fin 15) (i j : Fin 128) (d : Fin 64) : EReal :=
  match t with
  | ⟨0, _⟩ => masked a μ i j d * eye i j
  | ⟨1, _⟩ => masked a μ i j d * off i j
  | ⟨2, _⟩ => masked a μ j i d * off i j
  | ⟨3, _⟩ => diag a μ i d * off i j
  | ⟨4, _⟩ => diag a μ j d * off i j
  | ⟨5, _⟩ => rowOff a μ i d * eye i j
  | ⟨6, _⟩ => colOff a μ i d * eye i j
  | ⟨7, _⟩ => (rowOff a μ j d - masked a μ j i d) * off i j
  | ⟨8, _⟩ => (colOff a μ i d - masked a μ j i d) * off i j
  | ⟨9, _⟩ => (colOff a μ j d - masked a μ i j d) * off i j
  | ⟨10, _⟩ => (rowOff a μ i d - masked a μ i j d) * off i j
  | ⟨11, _⟩ => (trace a μ d - diag a μ i d) * eye i j
  | ⟨12, _⟩ => (offSum a μ d - rowOff a μ i d - colOff a μ i d) * eye i j
  | ⟨13, _⟩ => (trace a μ d - diag a μ i d - diag a μ j d) * off i j
  | ⟨14, _⟩ => (offSum a μ d - rowOff a μ i d - rowOff a μ j d - colOff a μ i d - colOff a μ j d
        + masked a μ i j d + masked a μ j i d) * off i j

/-- Row `t·64 + d` of the weight matrix: feature `d` of slice `t`. -/
def wrow (t : Fin 15) (d : Fin 64) : Fin 960 := ⟨t.val * 64 + d.val, by have := t.isLt; have := d.isLt; omega⟩

/-- One slice's share of the result. -/
def share (W : Fin 960 → Fin 64 → EReal) (t : Fin 15) (i j : Fin 128) (o : Fin 64) : EReal :=
  ∑ d : Fin 64, term a μ t i j d * W (wrow t d) o

/-- The layer's result at `(i, j, o)`. -/
def out (W : Fin 960 → Fin 64 → EReal) (i j : Fin 128) (o : Fin 64) : EReal :=
  ∑ t : Fin 15, share a μ W t i j o

/-- The result as the fifteen shares added one after the other onto zero. -/
theorem out_eq_chain (W : Fin 960 → Fin 64 → EReal) (i j : Fin 128) (o : Fin 64) :
    out a μ W i j o =
      0 + share a μ W ⟨0, by decide⟩ i j o + share a μ W ⟨1, by decide⟩ i j o + share a μ W ⟨2, by decide⟩ i j o
        + share a μ W ⟨3, by decide⟩ i j o + share a μ W ⟨4, by decide⟩ i j o + share a μ W ⟨5, by decide⟩ i j o
        + share a μ W ⟨6, by decide⟩ i j o + share a μ W ⟨7, by decide⟩ i j o + share a μ W ⟨8, by decide⟩ i j o
        + share a μ W ⟨9, by decide⟩ i j o + share a μ W ⟨10, by decide⟩ i j o + share a μ W ⟨11, by decide⟩ i j o
        + share a μ W ⟨12, by decide⟩ i j o + share a μ W ⟨13, by decide⟩ i j o + share a μ W ⟨14, by decide⟩ i j o := by
  unfold out
  simp only [Fin.sum_univ_castSucc, Fin.sum_univ_zero]
  rfl

end Terms

/-- The layer over the whole batch, as one function of the three argument arrays: batch element `b` of the result is
    the layer's result of batch element `b` of the array, of the node mask's row `b` read as the numbers 0 and 1, and of
    the weights. -/
def result (A : (⟨4, ![8, 128, 128, 64]⟩ : Shape).Idx → EReal) (M : (⟨2, ![8, 128]⟩ : Shape).Idx → BitVec 1)
    (W : (⟨2, ![960, 64]⟩ : Shape).Idx → EReal) : (⟨4, ![8, 128, 128, 64]⟩ : Shape).Idx → EReal :=
  fun q => out (fun i j d => A (ix4 (q 0 : Fin 8) i j d))
    (fun i => FloatOps.uitofp (F := Ideal) .f32 (M (ix2 (q 0 : Fin 8) i)))
    (fun k o => W (ix2 k o)) (q 1) (q 2) (q 3)

end Cert.Layer

end
-- ==== Proof.KernelTerms.lean ====
/-
  The kernel body's intermediate arrays, read at an entry, over the extended reals.

  The body works on one batch element: an `n × n × D` block `x0` of the input array and a length-`n` block `x1` of the
  node weights. Each lemma reads one value of the body at an entry `(i, j, d)` (or `(i, d)`, or `d`) and names it in the
  layer's terms (`Cert.Layer`): the masked array and its transpose, the two selectors (the equality flag of the two node
  coordinates read as a float, and one minus it), the diagonal (a sum along a row of products with the diagonal
  selector, which keeps its one diagonal term), the row and column sums less the diagonal, the trace, the sum of
  column sums less the trace, the re-shaped copies of these with a unit axis put in, and finally the fifteen arrays
  that meet the weight slices. Re-shapings move no entry; a value spread along an axis shows its one entry at every
  position of that axis.
-/
import proofs.«122922_j17351667876255_2_alg».proof.Proof.Gen.KernelIdeal.Skeleton
import proofs.«122922_j17351667876255_2_alg».proof.Proof.LibUnitAxes
import proofs.«122922_j17351667876255_2_alg».proof.Proof.LibGram
import proofs.«122922_j17351667876255_2_alg».proof.Proof.LibEqSelector
import proofs.«122922_j17351667876255_2_alg».proof.Proof.Layer
import Idealize.ShloMosaic.Lib.ValueLayout

noncomputable section

open scoped BigOperators

namespace Cert.KernelIdeal.Terms

open Cert.KernelIdeal Cert.KernelIdeal.Gen Idealize.ShloMosaic Idealize.ShloMosaic.ValueIdx
open Cert.Lib.UnitAxes Cert.Lib.Gram Cert.Lib.EqSelector Cert.Layer

variable (x0 : Vec Ideal S1x128x128x64 .f32) (x1 : Vec Ideal S1x1x128 .f32)

/-- The block of the input array as an `n × n` array of feature vectors. -/
def arr (i j : Fin 128) (d : Fin 64) : EReal := x0 (ix4 (0 : Fin 1) i j d)

/-- The block of the node weights. -/
def wt (i : Fin 128) : EReal := x1 (ix3 (0 : Fin 1) (0 : Fin 1) i)

theorem pay2_apply (i j : Fin 128) (d : Fin 64) :
    k0_pay2 (F := Ideal) x0 x1 (ix3 i j d) = masked (arr x0) (wt x1) i j d := by
  unfold k0_pay2
  show shapeCast S128x128x64 x0 _ (ix3 i j d) * broadcastTo S128x128x64 _ _ (ix3 i j d) = _
  rw [shapeCast_1abc_abc_apply, broadcastTo_ab1_abc_apply, shapeCast_ab_ab1_apply]
  show _ * (broadcastTo S128x128 _ _ (ix2 i j) * broadcastTo S128x128 _ _ (ix2 i j)) = _
  rw [broadcastTo_a1_ab_apply, broadcastTo_1b_ab_apply, shapeCast_a_a1_apply, shapeCast_a_1a_apply,
    shapeCast_11a_a_apply, shapeCast_11a_a_apply]
  rfl

theorem pay3_apply (i j : Fin 128) (d : Fin 64) :
    k0_pay3 (F := Ideal) x0 x1 (ix3 i j d) = masked (arr x0) (wt x1) j i d := by
  unfold k0_pay3
  show transpose S128x128x64 [1, 0, 2] _ _ (ix3 i j d) = _
  rw [transpose_ix3_102_apply, pay2_apply]

theorem pay4_apply (i j : Fin 128) (d : Fin 64) : k0_pay4 (F := Ideal) (ix3 i j d) = eye i j := by
  unfold k0_pay4
  show FloatOps.sitofp (F := Ideal) .f32 ((IntOp.cmpi .eq (iota .tc S128x128x64 32 [0] _ (ix3 i j d)) (iota .tc S128x128x64 32 [1] _ (ix3 i j d))).setWidth 32) = _
  rw [iota_single_apply, iota_single_apply]
  show FloatOps.sitofp (F := Ideal) .f32 ((IntOp.cmpi .eq (BitVec.ofNat 32 i.val) (BitVec.ofNat 32 j.val)).setWidth 32) = _
  exact sitofp_extui_cmpi_eq (by have := i.isLt; omega) (by have := j.isLt; omega)

theorem pay5_apply (i j : Fin 128) (d : Fin 64) : k0_pay5 (F := Ideal) (ix3 i j d) = off i j := by
  unfold k0_pay5
  show Ideal.ofBits .f32 0x3F800000#32 - k0_pay4 (F := Ideal) (ix3 i j d) = _
  rw [pay4_apply]
  rfl

/-- The sum along a row of the products with the diagonal selector is the row's diagonal entry. -/
theorem pay6_apply (i : Fin 128) (d : Fin 64) :
    k0_pay6 (F := Ideal) x0 x1 (ix2 i d) = diag (arr x0) (wt x1) i d := by
  unfold k0_pay6
  refine (sumMid_apply _ _ _ _ i d).trans ?_
  refine (Finset.sum_congr rfl fun k _ => ?_).trans (sum_mul_eye (fun k => masked (arr x0) (wt x1) i k d) i)
  show k0_pay2 (F := Ideal) x0 x1 (ix3 i k d) * k0_pay4 (F := Ideal) (ix3 i k d) = _
  rw [pay2_apply, pay4_apply]

theorem pay7_apply (i : Fin 128) (d : Fin 64) :
    k0_pay7 (F := Ideal) x0 x1 (ix2 i d) = rowOff (arr x0) (wt x1) i d := by
  unfold k0_pay7
  show (_ : EReal) - k0_pay6 (F := Ideal) x0 x1 (ix2 i d) = _
  rw [pay6_apply]
  refine congrArg (· - diag (arr x0) (wt x1) i d) ?_
  exact (sumMid_apply _ _ _ _ i d).trans (Finset.sum_congr rfl fun k _ => pay2_apply x0 x1 i k d)

theorem pay8_apply (i : Fin 128) (d : Fin 64) :
    k0_pay8 (F := Ideal) x0 x1 (ix2 i d) = colOff (arr x0) (wt x1) i d := by
  unfold k0_pay8
  show (_ : EReal) - k0_pay6 (F := Ideal) x0 x1 (ix2 i d) = _
  rw [pay6_apply]
  refine congrArg (· - diag (arr x0) (wt x1) i d) ?_
  exact (sumFirst_apply _ _ _ _ i d).trans (Finset.sum_congr rfl fun k _ => pay2_apply x0 x1 k i d)

theorem pay9_apply (u : Fin 1) (d : Fin 64) :
    k0_pay9 (F := Ideal) x0 x1 (ix2 u d) = trace (arr x0) (wt x1) d := by
  unfold k0_pay9
  refine (shapeCast_a_1a_apply _ _ u d).trans ?_
  exact (sumRows_apply _ _ _ _ d).trans (Finset.sum_congr rfl fun k _ => pay6_apply x0 x1 k d)

theorem pay17_apply (u u' : Fin 1) (d : Fin 64) :
    k0_pay17 (F := Ideal) x0 x1 (ix3 u u' d) = offSum (arr x0) (wt x1) d := by
  unfold k0_pay17
  refine (shapeCast_ab_1ab_apply _ _ u u' d).trans ?_
  show (_ : EReal) - k0_pay9 (F := Ideal) x0 x1 (ix2 u' d) = _
  rw [pay9_apply]
  refine congrArg (· - trace (arr x0) (wt x1) d) ?_
  refine (shapeCast_a_1a_apply _ _ u' d).trans ?_
  refine (sumRows_apply _ _ _ _ d).trans (Finset.sum_congr rfl fun l _ => ?_)
  exact (sumFirst_apply _ _ _ _ l d).trans (Finset.sum_congr rfl fun k _ => pay2_apply x0 x1 k l d)

theorem pay10_apply (i : Fin 128) (u : Fin 1) (d : Fin 64) :
    k0_pay10 (F := Ideal) x0 x1 (ix3 i u d) = rowOff (arr x0) (wt x1) i d :=
  (shapeCast_ab_a1b_apply _ _ i u d).trans (pay7_apply x0 x1 i d)

theorem pay11_apply (u : Fin 1) (j : Fin 128) (d : Fin 64) :
    k0_pay11 (F := Ideal) x0 x1 (ix3 u j d) = rowOff (arr x0) (wt x1) j d :=
  (shapeCast_ab_1ab_apply _ _ u j d).trans (pay7_apply x0 x1 j d)

theorem pay12_apply (i : Fin 128) (u : Fin 1) (d : Fin 64) :
    k0_pay12 (F := Ideal) x0 x1 (ix3 i u d) = colOff (arr x0) (wt x1) i d :=
  (shapeCast_ab_a1b_apply _ _ i u d).trans (pay8_apply x0 x1 i d)

theorem pay13_apply (u : Fin 1) (j : Fin 128) (d : Fin 64) :
    k0_pay13 (F := Ideal) x0 x1 (ix3 u j d) = colOff (arr x0) (wt x1) j d :=
  (shapeCast_ab_1ab_apply _ _ u j d).trans (pay8_apply x0 x1 j d)

theorem pay14_apply (i : Fin 128) (u : Fin 1) (d : Fin 64) :
    k0_pay14 (F := Ideal) x0 x1 (ix3 i u d) = diag (arr x0) (wt x1) i d :=
  (shapeCast_ab_a1b_apply _ _ i u d).trans (pay6_apply x0 x1 i d)

theorem pay15_apply (u : Fin 1) (j : Fin 128) (d : Fin 64) :
    k0_pay15 (F := Ideal) x0 x1 (ix3 u j d) = diag (arr x0) (wt x1) j d :=
  (shapeCast_ab_1ab_apply _ _ u j d).trans (pay6_apply x0 x1 j d)

theorem pay16_apply (u u' : Fin 1) (d : Fin 64) :
    k0_pay16 (F := Ideal) x0 x1 (ix3 u u' d) = trace (arr x0) (wt x1) d :=
  (shapeCast_ab_1ab_apply _ _ u u' d).trans (pay9_apply x0 x1 u' d)

/-! ## The fifteen arrays the body contracts with the weight slices -/

theorem term0_apply (i j : Fin 128) (d : Fin 64) :
    k0_pay18 (F := Ideal) x0 x1 (ix3 i j d) = term (arr x0) (wt x1) ⟨0, by decide⟩ i j d := by
  unfold k0_pay18
  show k0_pay2 (F := Ideal) x0 x1 (ix3 i j d) * k0_pay4 (F := Ideal) (ix3 i j d) = _
  rw [pay2_apply, pay4_apply]; rfl

theorem term1_apply (i j : Fin 128) (d : Fin 64) :
    k0_pay19 (F := Ideal) x0 x1 (ix3 i j d) = term (arr x0) (wt x1) ⟨1, by decide⟩ i j d := by
  unfold k0_pay19
  show k0_pay2 (F := Ideal) x0 x1 (ix3 i j d) * k0_pay5 (F := Ideal) (ix3 i j d) = _
  rw [pay2_apply, pay5_apply]; rfl

theorem term2_apply (i j : Fin 128) (d : Fin 64) :
    k0_pay20 (F := Ideal) x0 x1 (ix3 i j d) = term (arr x0) (wt x1) ⟨2, by decide⟩ i j d := by
  unfold k0_pay20
  show k0_pay3 (F := Ideal) x0 x1 (ix3 i j d) * k0_pay5 (F := Ideal) (ix3 i j d) = _
  rw [pay3_apply, pay5_apply]; rfl

theorem term3_apply (i j : Fin 128) (d : Fin 64) :
    k0_pay21 (F := Ideal) x0 x1 (ix3 i j d) = term (arr x0) (wt x1) ⟨3, by decide⟩ i j d := by
  unfold k0_pay21
  show broadcastTo S128x128x64 (k0_pay14 (F := Ideal) x0 x1) _ (ix3 i j d) * k0_pay5 (F := Ideal) (ix3 i j d) = _
  rw [broadcastTo_a1c_abc_apply, pay14_apply, pay5_apply]; rfl

theorem term4_apply (i j : Fin 128) (d : Fin 64) :
    k0_pay22 (k0_pay5 (F := Ideal)) (k0_pay15 (F := Ideal) x0 x1) (ix3 i j d) = term (arr x0) (wt x1) ⟨4, by decide⟩ i j d := by
  unfold k0_pay22
  show broadcastTo S128x128x64 (k0_pay15 (F := Ideal) x0 x1) _ (ix3 i j d) * k0_pay5 (F := Ideal) (ix3 i j d) = _
  rw [broadcastTo_1bc_abc_apply, pay15_apply, pay5_apply]; rfl

theorem term5_apply (i j : Fin 128) (d : Fin 64) :
    k0_pay23 (k0_pay4 (F := Ideal)) (k0_pay10 (F := Ideal) x0 x1) (ix3 i j d) = term (arr x0) (wt x1) ⟨5, by decide⟩ i j d := by
  unfold k0_pay23
  show broadcastTo S128x128x64 (k0_pay10 (F := Ideal) x0 x1) _ (ix3 i j d) * k0_pay4 (F := Ideal) (ix3 i j d) = _
  rw [broadcastTo_a1c_abc_apply, pay10_apply, pay4_apply]; rfl

theorem term6_apply (i j : Fin 128) (d : Fin 64) :
    k0_pay24 (k0_pay4 (F := Ideal)) (k0_pay12 (F := Ideal) x0 x1) (ix3 i j d) = term (arr x0) (wt x1) ⟨6, by decide⟩ i j d := by
  unfold k0_pay24
  show broadcastTo S128x128x64 (k0_pay12 (F := Ideal) x0 x1) _ (ix3 i j d) * k0_pay4 (F := Ideal) (ix3 i j d) = _
  rw [broadcastTo_a1c_abc_apply, pay12_apply, pay4_apply]; rfl

theorem term7_apply (i j : Fin 128) (d : Fin 64) :
    k0_pay25 (k0_pay3 (F := Ideal) x0 x1) (k0_pay5 (F := Ideal)) (k0_pay11 (F := Ideal) x0 x1) (ix3 i j d) = term (arr x0) (wt x1) ⟨7, by decide⟩ i j d := by
  unfold k0_pay25
  show (broadcastTo S128x128x64 (k0_pay11 (F := Ideal) x0 x1) _ (ix3 i j d) - k0_pay3 (F := Ideal) x0 x1 (ix3 i j d)) * k0_pay5 (F := Ideal) (ix3 i j d) = _
  rw [broadcastTo_1bc_abc_apply, pay11_apply, pay3_apply, pay5_apply]; rfl

theorem term8_apply (i j : Fin 128) (d : Fin 64) :
    k0_pay26 (k0_pay3 (F := Ideal) x0 x1) (k0_pay5 (F := Ideal)) (k0_pay12 (F := Ideal) x0 x1) (ix3 i j d) = term (arr x0) (wt x1) ⟨8, by decide⟩ i j d := by
  unfold k0_pay26
  show (broadcastTo S128x128x64 (k0_pay12 (F := Ideal) x0 x1) _ (ix3 i j d) - k0_pay3 (F := Ideal) x0 x1 (ix3 i j d)) * k0_pay5 (F := Ideal) (ix3 i j d) = _
  rw [broadcastTo_a1c_abc_apply, pay12_apply, pay3_apply, pay5_apply]; rfl

theorem term9_apply (i j : Fin 128) (d : Fin 64) :
    k0_pay27 (k0_pay2 (F := Ideal) x0 x1) (k0_pay5 (F := Ideal)) (k0_pay13 (F := Ideal) x0 x1) (ix3 i j d) = term (arr x0) (wt x1) ⟨9, by decide⟩ i j d := by
  unfold k0_pay27
  show (broadcastTo S128x128x64 (k0_pay13 (F := Ideal) x0 x1) _ (ix3 i j d) - k0_pay2 (F := Ideal) x0 x1 (ix3 i j d)) * k0_pay5 (F := Ideal) (ix3 i j d) = _
  rw [broadcastTo_1bc_abc_apply, pay13_apply, pay2_apply, pay5_apply]; rfl

theorem term10_apply (i j : Fin 128) (d : Fin 64) :
    k0_pay28 (k0_pay2 (F := Ideal) x0 x1) (k0_pay5 (F := Ideal)) (k0_pay10 (F := Ideal) x0 x1) (ix3 i j d) = term (arr x0) (wt x1) ⟨10, by decide⟩ i j d := by
  unfold k0_pay28
  show (broadcastTo S128x128x64 (k0_pay10 (F := Ideal) x0 x1) _ (ix3 i j d) - k0_pay2 (F := Ideal) x0 x1 (ix3 i j d)) * k0_pay5 (F := Ideal) (ix3 i j d) = _
  rw [broadcastTo_a1c_abc_apply, pay10_apply, pay2_apply, pay5_apply]; rfl

theorem term11_apply (i j : Fin 128) (d : Fin 64) :
    k0_pay29 (k0_pay4 (F := Ideal)) (k0_pay14 (F := Ideal) x0 x1) (k0_pay16 (F := Ideal) x0 x1) (ix3 i j d) = term (arr x0) (wt x1) ⟨11, by decide⟩ i j d := by
  unfold k0_pay29
  show broadcastTo S128x128x64 (subf (broadcastTo S128x1x64 (k0_pay16 (F := Ideal) x0 x1) _) (k0_pay14 (F := Ideal) x0 x1)) _ (ix3 i j d)
    * k0_pay4 (F := Ideal) (ix3 i j d) = _
  rw [broadcastTo_a1c_abc_apply]
  show (broadcastTo S128x1x64 (k0_pay16 (F := Ideal) x0 x1) _ (ix3 i (0 : Fin 1) d) - k0_pay14 (F := Ideal) x0 x1 (ix3 i (0 : Fin 1) d))
    * k0_pay4 (F := Ideal) (ix3 i j d) = _
  rw [broadcastTo_1bc_abc_apply, pay16_apply, pay14_apply, pay4_apply]; rfl

theorem term12_apply (i j : Fin 128) (d : Fin 64) :
    k0_pay30 (k0_pay4 (F := Ideal)) (k0_pay10 (F := Ideal) x0 x1) (k0_pay12 (F := Ideal) x0 x1) (k0_pay17 (F := Ideal) x0 x1) (ix3 i j d)
      = term (arr x0) (wt x1) ⟨12, by decide⟩ i j d := by
  unfold k0_pay30
  show broadcastTo S128x128x64 (subf (subf (broadcastTo S128x1x64 (k0_pay17 (F := Ideal) x0 x1) _) (k0_pay10 (F := Ideal) x0 x1)) (k0_pay12 (F := Ideal) x0 x1)) _ (ix3 i j d)
    * k0_pay4 (F := Ideal) (ix3 i j d) = _
  rw [broadcastTo_a1c_abc_apply]
  show (broadcastTo S128x1x64 (k0_pay17 (F := Ideal) x0 x1) _ (ix3 i (0 : Fin 1) d) - k0_pay10 (F := Ideal) x0 x1 (ix3 i (0 : Fin 1) d)
      - k0_pay12 (F := Ideal) x0 x1 (ix3 i (0 : Fin 1) d)) * k0_pay4 (F := Ideal) (ix3 i j d) = _
  rw [broadcastTo_1bc_abc_apply, pay17_apply, pay10_apply, pay12_apply, pay4_apply]; rfl

theorem term13_apply (i j : Fin 128) (d : Fin 64) :
    k0_pay31 (k0_pay5 (F := Ideal)) (k0_pay14 (F := Ideal) x0 x1) (k0_pay15 (F := Ideal) x0 x1) (k0_pay16 (F := Ideal) x0 x1) (ix3 i j d)
      = term (arr x0) (wt x1) ⟨13, by decide⟩ i j d := by
  unfold k0_pay31
  show (broadcastTo S128x128x64 (subf (broadcastTo S128x1x64 (k0_pay16 (F := Ideal) x0 x1) _) (k0_pay14 (F := Ideal) x0 x1)) _ (ix3 i j d)
      - broadcastTo S128x128x64 (k0_pay15 (F := Ideal) x0 x1) _ (ix3 i j d)) * k0_pay5 (F := Ideal) (ix3 i j d) = _
  rw [broadcastTo_a1c_abc_apply, broadcastTo_1bc_abc_apply]
  show (broadcastTo S128x1x64 (k0_pay16 (F := Ideal) x0 x1) _ (ix3 i (0 : Fin 1) d) - k0_pay14 (F := Ideal) x0 x1 (ix3 i (0 : Fin 1) d)
      - k0_pay15 (F := Ideal) x0 x1 (ix3 (0 : Fin 1) j d)) * k0_pay5 (F := Ideal) (ix3 i j d) = _
  rw [broadcastTo_1bc_abc_apply, pay16_apply, pay14_apply, pay15_apply, pay5_apply]; rfl

theorem term14_apply (i j : Fin 128) (d : Fin 64) :
    k0_pay32 (k0_pay2 (F := Ideal) x0 x1) (k0_pay3 (F := Ideal) x0 x1) (k0_pay5 (F := Ideal)) (k0_pay10 (F := Ideal) x0 x1) (k0_pay11 (F := Ideal) x0 x1) (k0_pay12 (F := Ideal) x0 x1) (k0_pay13 (F := Ideal) x0 x1) (k0_pay17 (F := Ideal) x0 x1) (ix3 i j d)
      = term (arr x0) (wt x1) ⟨14, by decide⟩ i j d := by
  unfold k0_pay32
  show (broadcastTo S128x128x64 (subf (broadcastTo S128x1x64 (k0_pay17 (F := Ideal) x0 x1) _) (k0_pay10 (F := Ideal) x0 x1)) _ (ix3 i j d)
      - broadcastTo S128x128x64 (k0_pay11 (F := Ideal) x0 x1) _ (ix3 i j d)
      - broadcastTo S128x128x64 (k0_pay12 (F := Ideal) x0 x1) _ (ix3 i j d)
      - broadcastTo S128x128x64 (k0_pay13 (F := Ideal) x0 x1) _ (ix3 i j d)
      + k0_pay2 (F := Ideal) x0 x1 (ix3 i j d) + k0_pay3 (F := Ideal) x0 x1 (ix3 i j d)) * k0_pay5 (F := Ideal) (ix3 i j d) = _
  rw [broadcastTo_a1c_abc_apply, broadcastTo_1bc_abc_apply, broadcastTo_a1c_abc_apply, broadcastTo_1bc_abc_apply]
  show (broadcastTo S128x1x64 (k0_pay17 (F := Ideal) x0 x1) _ (ix3 i (0 : Fin 1) d) - k0_pay10 (F := Ideal) x0 x1 (ix3 i (0 : Fin 1) d)
      - k0_pay11 (F := Ideal) x0 x1 (ix3 (0 : Fin 1) j d) - k0_pay12 (F := Ideal) x0 x1 (ix3 i (0 : Fin 1) d) - k0_pay13 (F := Ideal) x0 x1 (ix3 (0 : Fin 1) j d)
      + k0_pay2 (F := Ideal) x0 x1 (ix3 i j d) + k0_pay3 (F := Ideal) x0 x1 (ix3 i j d)) * k0_pay5 (F := Ideal) (ix3 i j d) = _
  rw [broadcastTo_1bc_abc_apply, pay17_apply, pay10_apply, pay11_apply, pay12_apply, pay13_apply, pay2_apply,
    pay3_apply, pay5_apply]; rfl

end Cert.KernelIdeal.Terms

end
-- ==== Proof.KernelBlock.lean ====
/-
  The kernel body's output block: fifteen matrix products added up, read at an entry.

  Each of the fifteen `n × n × D` arrays is folded to `(n·n) × D` (row `i·n + j` is the feature vector at `(i, j)`),
  multiplied by its own `D × D` slice of the weights — rows `64·t … 64·t + 63` of the weight block — into zero, unfolded
  back, and added onto the running total, which starts at zero. At `(i, j, o)` each product is the sum over the feature
  `d` of the array at `(i, j, d)` times the slice at `(d, o)`; so the block at `(i, j, o)` is the fifteen shares added one
  after the other onto zero, which is the layer's result (`Cert.Layer.out_eq_chain`).
-/
import proofs.«122922_j17351667876255_2_alg».proof.Proof.Gen.KernelIdeal.Frame
import proofs.«122922_j17351667876255_2_alg».proof.Proof.KernelTerms

noncomputable section

open scoped BigOperators

namespace Cert.KernelIdeal.Block

open Cert.KernelIdeal Cert.KernelIdeal.Gen Idealize.ShloMosaic Idealize.ShloMosaic.ValueIdx
open Cert.Lib.UnitAxes Cert.Lib.Gram Cert.Layer Cert.KernelIdeal.Terms

/-! ## One slice's product: a `(n·n) × D` by `D × D` matrix product read at an entry -/

theorem lhs0 (j : S16384x64.Idx) (q : dot_S16384x64_S64x64_S16384x64_1_0_0_1_n_n.contr.Idx) : (dot_S16384x64_S64x64_S16384x64_1_0_0_1_n_n.lhsIdx j q 0).val = (j 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl

theorem lhs1 (j : S16384x64.Idx) (q : dot_S16384x64_S64x64_S16384x64_1_0_0_1_n_n.contr.Idx) : (dot_S16384x64_S64x64_S16384x64_1_0_0_1_n_n.lhsIdx j q 1).val = (q ⟨0, by decide⟩).val :=
  dot_S16384x64_S64x64_S16384x64_1_0_0_1_n_n.lhsIdx_val_of_single rfl j q

theorem rhs0 (j : S16384x64.Idx) (q : dot_S16384x64_S64x64_S16384x64_1_0_0_1_n_n.contr.Idx) : (dot_S16384x64_S64x64_S16384x64_1_0_0_1_n_n.rhsIdx j q 0).val = (q ⟨0, by decide⟩).val :=
  dot_S16384x64_S64x64_S16384x64_1_0_0_1_n_n.rhsIdx_val_of_single rfl j q

theorem rhs1 (j : S16384x64.Idx) (q : dot_S16384x64_S64x64_S16384x64_1_0_0_1_n_n.contr.Idx) : (dot_S16384x64_S64x64_S16384x64_1_0_0_1_n_n.rhsIdx j q 1).val = (j 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl

/-- An `n × n × D` array with its two node axes folded into one, as the matrix product's left operand. -/
def flat (v : FVec Ideal S128x128x64 .f32) : FVec Ideal S16384x64 .bf16 :=
  truncf .bf16 (shapeCast S16384x64 v shapeCasts_S128x128x64_S16384x64) bitsLt_bf16_f32

/-- The product of a folded array with one `D × D` weight slice, from zero, unfolded back to `n × n × D`. -/
def prod (u : FVec Ideal S16384x64 .bf16) (w : Vec Ideal S64x64 .f32) : FVec Ideal S128x128x64 .f32 :=
  shapeCast S128x128x64 (matmul dot_S16384x64_S64x64_S16384x64_1_0_0_1_n_n none u (truncf .bf16 w bitsLt_bf16_f32)
    (constant S16384x64 .f32 0x00000000#32)) shapeCasts_S16384x64_S128x128x64

/-- At `(i, j, o)` the product is the sum over the feature `d` of the array at `(i, j, d)` times the slice at `(d, o)`:
    row `i·n + j` of the folded array is the feature vector at `(i, j)`. -/
theorem prod_flat_apply (v : FVec Ideal S128x128x64 .f32) (w : Vec Ideal S64x64 .f32) (i j : Fin 128) (o : Fin 64) :
    prod (flat v) w (ix3 i j o) = ∑ d : Fin 64, v (ix3 i j d) * w (ix2 d o) := by
  have hr : i.val * 128 + j.val < 16384 := by have := i.isLt; have := j.isLt; omega
  unfold prod
  refine (shapeCast_nc_abc_apply _ _ i j o ⟨i.val * 128 + j.val, hr⟩ rfl).trans ?_
  refine (matmul_zero_single_apply dot_S16384x64_S64x64_S16384x64_1_0_0_1_n_n 64 rfl rfl none _ _ _
    (fun c => ix2 ⟨i.val * 128 + j.val, hr⟩ c) (fun c => ix2 c o) (fun c => ?_) (fun c => ?_)).trans ?_
  · funext a; apply Fin.ext
    match a with
    | ⟨0, _⟩ => exact lhs0 _ _
    | ⟨1, _⟩ => exact (lhs1 _ _).trans (contrEquiv1_symm_val dot_S16384x64_S64x64_S16384x64_1_0_0_1_n_n 64 rfl rfl c)
  · funext a; apply Fin.ext
    match a with
    | ⟨0, _⟩ => exact (rhs0 _ _).trans (contrEquiv1_symm_val dot_S16384x64_S64x64_S16384x64_1_0_0_1_n_n 64 rfl rfl c)
    | ⟨1, _⟩ => exact rhs1 _ _
  · refine Finset.sum_congr rfl fun c _ => ?_
    show shapeCast S16384x64 v _ (ix2 ⟨i.val * 128 + j.val, hr⟩ c) * w (ix2 c o) = _
    rw [shapeCast_abc_nc_apply v _ i j c ⟨i.val * 128 + j.val, hr⟩ rfl]

/-! ## The body's accumulation, named -/

theorem pay34_eq (v : FVec Ideal S128x128x64 .f32) : k0_pay34 (F := Ideal) v = flat v := rfl
theorem pay36_eq (v : FVec Ideal S128x128x64 .f32) : k0_pay36 (F := Ideal) v = flat v := rfl
theorem pay38_eq (v : FVec Ideal S128x128x64 .f32) : k0_pay38 (F := Ideal) v = flat v := rfl

theorem pay33_eq (v40 : FVec Ideal S128x128x64 .f32) (w : Vec Ideal S64x64 .f32) :
    k0_pay33 (F := Ideal) v40 w
      = addf (broadcast S128x128x64 (Scalar.ofBits (F := Ideal) .f32 0x00000000#32)) (prod (flat v40) w) := rfl

theorem pay35_eq (v42 v44 v46 v48 v50 v97 : FVec Ideal S128x128x64 .f32) (v99 : FVec Ideal S16384x64 .bf16)
    (w1 w2 w3 w4 w5 w6 : Vec Ideal S64x64 .f32) :
    k0_pay35 (F := Ideal) v42 v44 v46 v48 v50 v97 v99 w1 w2 w3 w4 w5 w6
      = addf (addf (addf (addf (addf (addf v97 (prod v99 w1)) (prod (flat v42) w2)) (prod (flat v44) w3))
          (prod (flat v46) w4)) (prod (flat v48) w5)) (prod (flat v50) w6) := rfl

theorem pay37_eq (v56 v59 v62 v66 v71 v139 : FVec Ideal S128x128x64 .f32) (v141 : FVec Ideal S16384x64 .bf16)
    (w1 w2 w3 w4 w5 w6 : Vec Ideal S64x64 .f32) :
    k0_pay37 (F := Ideal) v56 v59 v62 v66 v71 v139 v141 w1 w2 w3 w4 w5 w6
      = addf (addf (addf (addf (addf (addf v139 (prod v141 w1)) (prod (flat v56) w2)) (prod (flat v59) w3))
          (prod (flat v62) w4)) (prod (flat v66) w5)) (prod (flat v71) w6) := rfl

theorem pay1_eq (v89 v181 : FVec Ideal S128x128x64 .f32) (v183 : FVec Ideal S16384x64 .bf16)
    (w1 w2 : Vec Ideal S64x64 .f32) :
    k0_pay1 (F := Ideal) v89 v181 v183 w1 w2
      = shapeCast S1x128x128x64 (addf (addf v181 (prod v183 w1)) (prod (flat v89) w2))
          shapeCasts_S128x128x64_S1x128x128x64 := rfl

/-! ## The fifteen weight slices the body loads -/

theorem ld_w0 (x2 : Vec Ideal S960x64 .f32) (d o : Fin 64) :
    View.ld x2 r0_2 (ix2 d o) = x2 (ix2 (wrow ⟨0, by decide⟩ d) o) :=
  congrArg x2 (funext fun a => Fin.ext (by
    match a with
    | ⟨0, _⟩ => show (0 : ℕ) + 1 * d.val = 0 * 64 + d.val; omega
    | ⟨1, _⟩ => show (0 : ℕ) + 1 * o.val = o.val; omega))
theorem ld_w1 (x2 : Vec Ideal S960x64 .f32) (d o : Fin 64) :
    View.ld x2 r0_3 (ix2 d o) = x2 (ix2 (wrow ⟨1, by decide⟩ d) o) :=
  congrArg x2 (funext fun a => Fin.ext (by
    match a with
    | ⟨0, _⟩ => show (64 : ℕ) + 1 * d.val = 1 * 64 + d.val; omega
    | ⟨1, _⟩ => show (0 : ℕ) + 1 * o.val = o.val; omega))
theorem ld_w2 (x2 : Vec Ideal S960x64 .f32) (d o : Fin 64) :
    View.ld x2 r0_4 (ix2 d o) = x2 (ix2 (wrow ⟨2, by decide⟩ d) o) :=
  congrArg x2 (funext fun a => Fin.ext (by
    match a with
    | ⟨0, _⟩ => show (128 : ℕ) + 1 * d.val = 2 * 64 + d.val; omega
    | ⟨1, _⟩ => show (0 : ℕ) + 1 * o.val = o.val; omega))
theorem ld_w3 (x2 : Vec Ideal S960x64 .f32) (d o : Fin 64) :
    View.ld x2 r0_5 (ix2 d o) = x2 (ix2 (wrow ⟨3, by decide⟩ d) o) :=
  congrArg x2 (funext fun a => Fin.ext (by
    match a with
    | ⟨0, _⟩ => show (192 : ℕ) + 1 * d.val = 3 * 64 + d.val; omega
    | ⟨1, _⟩ => show (0 : ℕ) + 1 * o.val = o.val; omega))
theorem ld_w4 (x2 : Vec Ideal S960x64 .f32) (d o : Fin 64) :
    View.ld x2 r0_6 (ix2 d o) = x2 (ix2 (wrow ⟨4, by decide⟩ d) o) :=
  congrArg x2 (funext fun a => Fin.ext (by
    match a with
    | ⟨0, _⟩ => show (256 : ℕ) + 1 * d.val = 4 * 64 + d.val; omega
    | ⟨1, _⟩ => show (0 : ℕ) + 1 * o.val = o.val; omega))
theorem ld_w5 (x2 : Vec Ideal S960x64 .f32) (d o : Fin 64) :
    View.ld x2 r0_7 (ix2 d o) = x2 (ix2 (wrow ⟨5, by decide⟩ d) o) :=
  congrArg x2 (funext fun a => Fin.ext (by
    match a with
    | ⟨0, _⟩ => show (320 : ℕ) + 1 * d.val = 5 * 64 + d.val; omega
    | ⟨1, _⟩ => show (0 : ℕ) + 1 * o.val = o.val; omega))
theorem ld_w6 (x2 : Vec Ideal S960x64 .f32) (d o : Fin 64) :
    View.ld x2 r0_8 (ix2 d o) = x2 (ix2 (wrow ⟨6, by decide⟩ d) o) :=
  congrArg x2 (funext fun a => Fin.ext (by
    match a with
    | ⟨0, _⟩ => show (384 : ℕ) + 1 * d.val = 6 * 64 + d.val; omega
    | ⟨1, _⟩ => show (0 : ℕ) + 1 * o.val = o.val; omega))
theorem ld_w7 (x2 : Vec Ideal S960x64 .f32) (d o : Fin 64) :
    View.ld x2 r0_9 (ix2 d o) = x2 (ix2 (wrow ⟨7, by decide⟩ d) o) :=
  congrArg x2 (funext fun a => Fin.ext (by
    match a with
    | ⟨0, _⟩ => show (448 : ℕ) + 1 * d.val = 7 * 64 + d.val; omega
    | ⟨1, _⟩ => show (0 : ℕ) + 1 * o.val = o.val; omega))
theorem ld_w8 (x2 : Vec Ideal S960x64 .f32) (d o : Fin 64) :
    View.ld x2 r0_10 (ix2 d o) = x2 (ix2 (wrow ⟨8, by decide⟩ d) o) :=
  congrArg x2 (funext fun a => Fin.ext (by
    match a with
    | ⟨0, _⟩ => show (512 : ℕ) + 1 * d.val = 8 * 64 + d.val; omega
    | ⟨1, _⟩ => show (0 : ℕ) + 1 * o.val = o.val; omega))
theorem ld_w9 (x2 : Vec Ideal S960x64 .f32) (d o : Fin 64) :
    View.ld x2 r0_11 (ix2 d o) = x2 (ix2 (wrow ⟨9, by decide⟩ d) o) :=
  congrArg x2 (funext fun a => Fin.ext (by
    match a with
    | ⟨0, _⟩ => show (576 : ℕ) + 1 * d.val = 9 * 64 + d.val; omega
    | ⟨1, _⟩ => show (0 : ℕ) + 1 * o.val = o.val; omega))
theorem ld_w10 (x2 : Vec Ideal S960x64 .f32) (d o : Fin 64) :
    View.ld x2 r0_12 (ix2 d o) = x2 (ix2 (wrow ⟨10, by decide⟩ d) o) :=
  congrArg x2 (funext fun a => Fin.ext (by
    match a with
    | ⟨0, _⟩ => show (640 : ℕ) + 1 * d.val = 10 * 64 + d.val; omega
    | ⟨1, _⟩ => show (0 : ℕ) + 1 * o.val = o.val; omega))
theorem ld_w11 (x2 : Vec Ideal S960x64 .f32) (d o : Fin 64) :
    View.ld x2 r0_13 (ix2 d o) = x2 (ix2 (wrow ⟨11, by decide⟩ d) o) :=
  congrArg x2 (funext fun a => Fin.ext (by
    match a with
    | ⟨0, _⟩ => show (704 : ℕ) + 1 * d.val = 11 * 64 + d.val; omega
    | ⟨1, _⟩ => show (0 : ℕ) + 1 * o.val = o.val; omega))
theorem ld_w12 (x2 : Vec Ideal S960x64 .f32) (d o : Fin 64) :
    View.ld x2 r0_14 (ix2 d o) = x2 (ix2 (wrow ⟨12, by decide⟩ d) o) :=
  congrArg x2 (funext fun a => Fin.ext (by
    match a with
    | ⟨0, _⟩ => show (768 : ℕ) + 1 * d.val = 12 * 64 + d.val; omega
    | ⟨1, _⟩ => show (0 : ℕ) + 1 * o.val = o.val; omega))
theorem ld_w13 (x2 : Vec Ideal S960x64 .f32) (d o : Fin 64) :
    View.ld x2 r0_15 (ix2 d o) = x2 (ix2 (wrow ⟨13, by decide⟩ d) o) :=
  congrArg x2 (funext fun a => Fin.ext (by
    match a with
    | ⟨0, _⟩ => show (832 : ℕ) + 1 * d.val = 13 * 64 + d.val; omega
    | ⟨1, _⟩ => show (0 : ℕ) + 1 * o.val = o.val; omega))
theorem ld_w14 (x2 : Vec Ideal S960x64 .f32) (d o : Fin 64) :
    View.ld x2 r0_16 (ix2 d o) = x2 (ix2 (wrow ⟨14, by decide⟩ d) o) :=
  congrArg x2 (funext fun a => Fin.ext (by
    match a with
    | ⟨0, _⟩ => show (896 : ℕ) + 1 * d.val = 14 * 64 + d.val; omega
    | ⟨1, _⟩ => show (0 : ℕ) + 1 * o.val = o.val; omega))

/-! ## The body's output block -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- What the body leaves in its output block is the layer's result of its three input blocks: the fifteen arrays,
    each contracted with its own slice of the weights, added one after the other onto zero. -/
theorem block_apply (x0 : Vec Ideal S1x128x128x64 .f32) (x1 : Vec Ideal S1x1x128 .f32) (x2 : Vec Ideal S960x64 .f32)
    (u : Fin 1) (i j : Fin 128) (o : Fin 64) :
    out0_3 (F := Ideal) x0 x1 x2 (ix4 u i j o) = out (arr x0) (wt x1) (fun k o => x2 (ix2 k o)) i j o := by
  unfold out0_3
  rw [View.canon_unit_zero hz4]
  simp only [View.ld_unit_zero (S := S1x128x128x64) hz4, View.ld_unit_zero (S := S1x1x128) hz3]
  rw [pay1_eq, pay37_eq, pay35_eq, pay33_eq, pay34_eq, pay36_eq, pay38_eq, out_eq_chain]
  refine (shapeCast_abc_1abc_apply _ _ u i j o).trans ?_
  simp only [addf_apply, broadcast_apply, prod_flat_apply, term0_apply, term1_apply, term2_apply, term3_apply,
    term4_apply, term5_apply, term6_apply, term7_apply, term8_apply, term9_apply, term10_apply, term11_apply,
    term12_apply, term13_apply, term14_apply,
    show Scalar.ofBits (F := Ideal) .f32 0x00000000#32 = (0 : EReal) from Ideal.ofBits_zero_f32]
  refine congrArg₂ (· + ·) ?_ (Finset.sum_congr rfl fun d _ => congrArg (_ * ·) (ld_w14 x2 d o))
  refine congrArg₂ (· + ·) ?_ (Finset.sum_congr rfl fun d _ => congrArg (_ * ·) (ld_w13 x2 d o))
  refine congrArg₂ (· + ·) ?_ (Finset.sum_congr rfl fun d _ => congrArg (_ * ·) (ld_w12 x2 d o))
  refine congrArg₂ (· + ·) ?_ (Finset.sum_congr rfl fun d _ => congrArg (_ * ·) (ld_w11 x2 d o))
  refine congrArg₂ (· + ·) ?_ (Finset.sum_congr rfl fun d _ => congrArg (_ * ·) (ld_w10 x2 d o))
  refine congrArg₂ (· + ·) ?_ (Finset.sum_congr rfl fun d _ => congrArg (_ * ·) (ld_w9 x2 d o))
  refine congrArg₂ (· + ·) ?_ (Finset.sum_congr rfl fun d _ => congrArg (_ * ·) (ld_w8 x2 d o))
  refine congrArg₂ (· + ·) ?_ (Finset.sum_congr rfl fun d _ => congrArg (_ * ·) (ld_w7 x2 d o))
  refine congrArg₂ (· + ·) ?_ (Finset.sum_congr rfl fun d _ => congrArg (_ * ·) (ld_w6 x2 d o))
  refine congrArg₂ (· + ·) ?_ (Finset.sum_congr rfl fun d _ => congrArg (_ * ·) (ld_w5 x2 d o))
  refine congrArg₂ (· + ·) ?_ (Finset.sum_congr rfl fun d _ => congrArg (_ * ·) (ld_w4 x2 d o))
  refine congrArg₂ (· + ·) ?_ (Finset.sum_congr rfl fun d _ => congrArg (_ * ·) (ld_w3 x2 d o))
  refine congrArg₂ (· + ·) ?_ (Finset.sum_congr rfl fun d _ => congrArg (_ * ·) (ld_w2 x2 d o))
  refine congrArg₂ (· + ·) ?_ (Finset.sum_congr rfl fun d _ => congrArg (_ * ·) (ld_w1 x2 d o))
  refine congrArg₂ (· + ·) ?_ (Finset.sum_congr rfl fun d _ => congrArg (_ * ·) (ld_w0 x2 d o))
  rfl

end Cert.KernelIdeal.Block

end
-- ==== Proof.KernelWhole.lean ====
/-
  From blocks to the whole output array of the kernel.

  Grid point `t` of the eight works on batch element `t`: its input blocks are batch element `t` of the array and of
  the node weights (the mask read as 0 and 1 before the region) and the whole weight matrix, and it writes back batch
  element `t` of the output. What it writes is the layer's result of its blocks, and an entry `(b, i, j, o)` of the
  output lies in the block of point `b` and of no other; so after the run the output array is the layer's result of
  the argument arrays, batch element by batch element.
-/
import proofs.«122922_j17351667876255_2_alg».proof.Proof.Gen.KernelIdeal.Value
import proofs.«122922_j17351667876255_2_alg».proof.Proof.KernelBlock
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Layer Cert.KernelIdeal.Terms Cert.KernelIdeal.Block

variable (m : (ℓ : Loc nD τ sig) → Buf (Elt Ideal) ℓ) (ρ : Dev nD → PrngReg)

/-- Where each window's block sits at grid point `t`: the array's and the mask's block is batch element `t`, whole on
    the other axes; the weights' block is the whole matrix; the output's block is batch element `t`. -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = 0
    ∧ win0_1.index t (0 : Fin 3) = win0_3.index t (0 : Fin 4) ∧ win0_1.index t (1 : Fin 3) = 0
    ∧ win0_1.index t (2 : Fin 3) = 0
    ∧ win0_2.index t (0 : Fin 2) = 0 ∧ win0_2.index t (1 : Fin 2) = 0
    ∧ win0_3.index t (1 : Fin 4) = 0 ∧ win0_3.index t (2 : Fin 4) = 0 ∧ win0_3.index t (3 : Fin 4) = 0
    ∧ win0_3.index t (0 : Fin 4) = t.val :=
  (by decide +kernel : ∀ t : Fin grid0.N, _)

/-- The node weights as the region finds them: the mask read as 0 and 1, with a unit axis put in. -/
theorem V_main_v1 (c : Dev nD) :
    (V m c main_v1 : S8x1x128.Idx → EReal)
      = broadcastInDim S8x1x128 ![0, 2] bcast_S8x128_S8x1x128_0_2
          (uitofp (F := Ideal) .f32 (m ((c : Thread nD τ).loc main_arg1))) := by
  dsimp only [Gen.V, Gen.hostOps0]
  after_results

theorem V_main_v1_apply (c : Dev nD) (b : Fin 8) (u : Fin 1) (i : Fin 128) :
    (V m c main_v1 : S8x1x128.Idx → EReal) (ix3 b u i)
      = FloatOps.uitofp (F := Ideal) .f32 (m ((c : Thread nD τ).loc main_arg1) (ix2 b i)) := by
  rw [V_main_v1]
  exact broadcastInDim_apply _ bcast_S8x128_S8x1x128_0_2 _ (ix3 b u i) (ix2 b i) (fun a => match a with
    | ⟨0, _⟩ => by show b.val = if (8 : Nat) = 1 then 0 else b.val; rw [if_neg (by decide)]
    | ⟨1, _⟩ => by show i.val = if (128 : Nat) = 1 then 0 else i.val; rw [if_neg (by decide)])

/-- What grid point `t` writes back is block `t` of the layer's result of the argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1))
        (m ((c : Thread nD τ).loc main_arg2))) := by
  rw [Value.flushed3]
  obtain ⟨e00, e01, e02, e03, e10, e11, e12, e20, e21, e31, e32, e33, e30⟩ := idx_facts t
  have hb : win0_3.index t (0 : Fin 4) < 8 := by rw [e30]; exact lt_of_lt_of_eq t.isLt N_0
  funext y
  obtain ⟨u, i, j, o, rfl⟩ : ∃ (u : Fin 1) (i j : Fin 128) (o : Fin 64), y = ix4 u i j o :=
    ⟨y 0, y 1, y 2, y 3, eq_ix4 y⟩
  have hu : u.val = 0 := by omega
  refine (block_apply (iblk m c 0 t) (iblk m c 1 t) (iblk m c 2 t) u i j o).trans ?_
  have hq : ((cfg0.win 3).blk t).view.emb (ix4 u i j o)
      = ix4 (⟨win0_3.index t (0 : Fin 4), hb⟩ : Fin 8) i j o := by
    funext a; apply Fin.ext
    match a with
    | ⟨0, _⟩ => show win0_3.index t (0 : Fin 4) * 1 + 1 * u.val = win0_3.index t (0 : Fin 4); omega
    | ⟨1, _⟩ => show win0_3.index t (1 : Fin 4) * 128 + 1 * i.val = i.val; omega
    | ⟨2, _⟩ => show win0_3.index t (2 : Fin 4) * 128 + 1 * j.val = j.val; omega
    | ⟨3, _⟩ => show win0_3.index t (3 : Fin 4) * 64 + 1 * o.val = o.val; omega
  have h1 : arr (iblk m c 0 t) = fun i j d =>
      m ((c : Thread nD τ).loc main_arg0) (ix4 (⟨win0_3.index t (0 : Fin 4), hb⟩ : Fin 8) i j d) := by
    funext i j d
    show V m c main_arg0 (((cfg0.win 0).blk t).view.emb (ix4 (0 : Fin 1) i j d)) = _
    rw [V_main_arg0]
    refine congrArg (m ((c : Thread nD τ).loc main_arg0)) ?_
    funext a; apply Fin.ext
    match a with
    | ⟨0, _⟩ => show win0_0.index t (0 : Fin 4) * 1 + 1 * 0 = win0_3.index t (0 : Fin 4); omega
    | ⟨1, _⟩ => show win0_0.index t (1 : Fin 4) * 128 + 1 * i.val = i.val; omega
    | ⟨2, _⟩ => show win0_0.index t (2 : Fin 4) * 128 + 1 * j.val = j.val; omega
    | ⟨3, _⟩ => show win0_0.index t (3 : Fin 4) * 64 + 1 * d.val = d.val; omega
  have h2 : wt (iblk m c 1 t) = fun i => FloatOps.uitofp (F := Ideal) .f32
      (m ((c : Thread nD τ).loc main_arg1) (ix2 (⟨win0_3.index t (0 : Fin 4), hb⟩ : Fin 8) i)) := by
    funext i
    show (V m c main_v1 : S8x1x128.Idx → EReal) (((cfg0.win 1).blk t).view.emb (ix3 (0 : Fin 1) (0 : Fin 1) i)) = _
    rw [← V_main_v1_apply m c (⟨win0_3.index t (0 : Fin 4), hb⟩ : Fin 8) (0 : Fin 1) i]
    refine congrArg (V m c main_v1 : S8x1x128.Idx → EReal) ?_
    funext a; apply Fin.ext
    match a with
    | ⟨0, _⟩ => show win0_1.index t (0 : Fin 3) * 1 + 1 * 0 = win0_3.index t (0 : Fin 4); omega
    | ⟨1, _⟩ => show win0_1.index t (1 : Fin 3) * 1 + 1 * 0 = 0; omega
    | ⟨2, _⟩ => show win0_1.index t (2 : Fin 3) * 128 + 1 * i.val = i.val; omega
  have h3 : (fun (k : Fin 960) (o : Fin 64) => iblk m c 2 t (ix2 k o))
      = fun k o => m ((c : Thread nD τ).loc main_arg2) (ix2 k o) := by
    funext k o
    show V m c main_arg2 (((cfg0.win 2).blk t).view.emb (ix2 k o)) = _
    rw [V_main_arg2]
    refine congrArg (m ((c : Thread nD τ).loc main_arg2)) ?_
    funext a; apply Fin.ext
    match a with
    | ⟨0, _⟩ => show win0_2.index t (0 : Fin 2) * 960 + 1 * k.val = k.val; omega
    | ⟨1, _⟩ => show win0_2.index t (1 : Fin 2) * 64 + 1 * o.val = o.val; omega
  show _ = result _ _ _ (((cfg0.win 3).blk t).view.emb (ix4 u i j o))
  rw [hq, h1, h2, h3]
  rfl

/-- An index of the output array is in point `t`'s block iff each coordinate is in the block's range on its axis. -/
theorem mem_blk (t : Fin cfg0.N) (q : S8x128x128x64.Idx) :
    q ∈ ((cfg0.win 3).blk t).view.set ↔ ∀ a : Fin 4, win0_3.index t a * S1x128x128x64.size a ≤ (q a).val
      ∧ (q a).val < win0_3.index t a * S1x128x128x64.size a + S1x128x128x64.size a := by
  show q ∈ ((View.whole main_v2).slice (win0_3.rect t)).set ↔ _
  rw [View.set_slice_whole, Rect.mem_set_unit]
  exact Iff.rfl

/-- The output array after the run is the layer's result of the argument arrays: batch element `b` lies in the block
    of grid point `b`. -/
theorem final (c : Dev nD) : (dats m 0 c).arrAt 3 cfg0.N
    = result (m ((c : Thread nD τ).loc main_arg0)) (m ((c : Thread nD τ).loc main_arg1))
        (m ((c : Thread nD τ).loc main_arg2)) :=
  (dats m 0 c).arrAt_eq_of_cover 3 _ (fun t _ => flushed_eq m c t) fun q => by
    have hq0 : (q 0).val < 8 := (q 0).isLt
    have hq1 : (q 1).val < 128 := (q 1).isLt
    have hq2 : (q 2).val < 128 := (q 2).isLt
    have hq3 : (q 3).val < 64 := (q 3).isLt
    refine ⟨⟨(q 0).val, lt_of_lt_of_eq hq0 N_0.symm⟩, flush0_3 _, ?_⟩
    obtain ⟨e00, e01, e02, e03, e10, e11, e12, e20, e21, e31, e32, e33, e30⟩ :=
      idx_facts ⟨(q 0).val, lt_of_lt_of_eq hq0 N_0.symm⟩
    rw [mem_blk]
    intro a
    match a with
    | ⟨0, _⟩ =>
      show win0_3.index _ (0 : Fin 4) * 1 ≤ (q 0).val ∧ (q 0).val < win0_3.index _ (0 : Fin 4) * 1 + 1
      rw [e30]; show (q 0).val * 1 ≤ (q 0).val ∧ (q 0).val < (q 0).val * 1 + 1; omega
    | ⟨1, _⟩ =>
      show win0_3.index _ (1 : Fin 4) * 128 ≤ (q 1).val ∧ (q 1).val < win0_3.index _ (1 : Fin 4) * 128 + 128
      rw [e31]; omega
    | ⟨2, _⟩ =>
      show win0_3.index _ (2 : Fin 4) * 128 ≤ (q 2).val ∧ (q 2).val < win0_3.index _ (2 : Fin 4) * 128 + 128
      rw [e32]; omega
    | ⟨3, _⟩ =>
      show win0_3.index _ (3 : Fin 4) * 64 ≤ (q 3).val ∧ (q 3).val < win0_3.index _ (3 : Fin 4) * 64 + 64
      rw [e33]; omega

/-- The kernel's run: every execution ends with the output array at the layer's result of the arguments, the
    arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.LibReduceMid2.lean ====
/-
  A sum over the two middle axes of a four-axis array.

  A reduction of an `a × b × c × d` array over its second and third axes sends the index `(p, k, l, r)` to `(p, r)`. The
  indices sent to a given `(p, r)` are therefore the `b · c` indices `(p, k, l, r)`, one for each pair `(k, l)`, and a sum
  over them is the double sum over `l` and `k`. The sum is in any commutative monoid; the map that drops the two
  axes is abstract, known only by the two coordinates it keeps.
-/
import Mathlib.Algebra.BigOperators.Fin
import Idealize.ShloMosaic.Lib.ValueIdx

noncomputable section

open scoped BigOperators

namespace Cert.Lib.ReduceMid2

open Idealize.ShloMosaic Idealize.ShloMosaic.ValueIdx

/-- The indices of an `a × b × c × d` array that a map keeping the first and the last coordinate sends to `(p, r)`,
    summed, are the double sum over the third and the second coordinate at `(p, k, l, r)`. -/
theorem sum_filter_drop_mid2 {A : Type*} [AddCommMonoid A] {a b c d : ℕ}
    (drop : (⟨4, ![a, b, c, d]⟩ : Shape).Idx → (⟨2, ![a, d]⟩ : Shape).Idx)
    (h0 : ∀ i, (drop i 0).val = (i 0).val) (h1 : ∀ i, (drop i 1).val = (i 3).val)
    (x : (⟨4, ![a, b, c, d]⟩ : Shape).Idx → A) (p : Fin a) (r : Fin d) :
    ∑ i ∈ Finset.univ.filter (fun i => drop i = ix2 p r), x i = ∑ l : Fin c, ∑ k : Fin b, x (ix4 p k l r) := by
  have e : ∑ l : Fin c, ∑ k : Fin b, x (ix4 p k l r) = ∑ pr : Fin c × Fin b, x (ix4 p pr.2 pr.1 r) :=
    (Fintype.sum_prod_type (fun pr : Fin c × Fin b => x (ix4 p pr.2 pr.1 r))).symm
  rw [e]
  have hback : ∀ i : (⟨4, ![a, b, c, d]⟩ : Shape).Idx, drop i = ix2 p r →
      ix4 p (i 1 : Fin b) (i 2 : Fin c) r = i := by
    intro i hi
    funext ax; apply Fin.ext
    match ax with
    | ⟨0, _⟩ => show p.val = (i 0).val; rw [← h0 i, hi]; rfl
    | ⟨1, _⟩ => rfl
    | ⟨2, _⟩ => rfl
    | ⟨3, _⟩ => show r.val = (i 3).val; rw [← h1 i, hi]; rfl
  refine Finset.sum_bij' (fun i _ => ((i 2 : Fin c), (i 1 : Fin b))) (fun pr _ => ix4 p pr.2 pr.1 r)
    (fun _ _ => Finset.mem_univ _) (fun pr _ => ?_) (fun i hi => ?_) (fun pr _ => rfl) (fun i hi => ?_)
  · refine Finset.mem_filter.mpr ⟨Finset.mem_univ _, ?_⟩
    funext ax; apply Fin.ext
    match ax with
    | ⟨0, _⟩ => exact h0 _
    | ⟨1, _⟩ => exact h1 _
  · exact hback i (Finset.mem_filter.mp hi).2
  · exact congrArg x (hback i (Finset.mem_filter.mp hi).2).symm

end Cert.Lib.ReduceMid2

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.RefTerms.lean ====
/-
  The array program's stages, read at an entry, over the extended reals.

  Each stage of the program is a function of the argument arrays; the lemmas read the stages at a general index `q` and
  name them in the layer's terms (`Cert.Layer`) of batch element `q 0`: the masked array, the two selectors, the
  diagonal (a sum down a column of the entries kept only where the two node coordinates agree, which keeps its one
  term), the row and column sums less the diagonal, the trace, the sum over both node axes at once (the same terms as
  the sum of the column sums) less the trace, and the fifteen arrays. Set side by side along the feature axis they form
  an array of `15·64` columns in which column `64·t + d` is feature `d` of array `t`; the final contraction over all
  columns is therefore the sum over the fifteen slices of the sums over their 64 columns.
-/
import proofs.«122922_j17351667876255_2_alg».proof.Proof.Gen.ReferenceIdeal.Read
import proofs.«122922_j17351667876255_2_alg».proof.Proof.LibEqSelector
import proofs.«122922_j17351667876255_2_alg».proof.Proof.LibReduceMid2
import proofs.«122922_j17351667876255_2_alg».proof.Proof.LibBlockSum
import proofs.«122922_j17351667876255_2_alg».proof.Proof.Layer

noncomputable section

open scoped BigOperators

namespace Cert.ReferenceIdeal.Terms

open Cert.ReferenceIdeal Cert.ReferenceIdeal.Gen Cert.ReferenceIdeal.Read Idealize.ShloMosaic Idealize.ShloMosaic.ValueIdx
open Cert.Layer Cert.Lib.EqSelector Cert.Lib.ReduceMid2 Cert.Lib.BlockSum

variable (x0 : (⟨S8x128x128x64, .f32⟩ : BufTy).Contents (Elt Ideal)) (x1 : (⟨S8x128, .i1⟩ : BufTy).Contents (Elt Ideal))

/-- Batch element `b` of the input array. -/
def arr (b : Fin 8) (i j : Fin 128) (d : Fin 64) : EReal := x0 (ix4 b i j d)

/-- Row `b` of the node mask, as the numbers 0 and 1. -/
def wt (b : Fin 8) (i : Fin 128) : EReal := FloatOps.uitofp (F := Ideal) .f32 (x1 (ix2 b i))

/-! ## The stages every term is built from -/

theorem v8_at (q : S8x128x128x64.Idx) :
    val_main_v8 (F := Ideal) x0 x1 q = masked (arr x0 (q 0)) (wt x1 (q 0)) (q 1) (q 2) (q 3) := by
  rw [val_main_v8_apply, val_main_v7_apply, val_main_v6_apply, val_main_v5_apply, val_main_v3_apply,
    val_main_v4_apply, val_main_v1_apply, val_main_v2_apply, val_main_v0_apply, val_main_v0_apply]
  have e0 : x0 q = arr x0 (q 0) (q 1) (q 2) (q 3) := congrArg x0 (eq_ix4 q)
  have e1 : x1 (idx_main_v1 (idx_main_v3 (idx_main_v6 (idx_main_v7 q)))) = x1 (ix2 (q 0) (q 1)) :=
    congrArg x1 (by funext a; match a with | ⟨0, _⟩ => rfl | ⟨1, _⟩ => rfl)
  have e2 : x1 (idx_main_v2 (idx_main_v4 (idx_main_v6 (idx_main_v7 q)))) = x1 (ix2 (q 0) (q 2)) :=
    congrArg x1 (by funext a; match a with | ⟨0, _⟩ => rfl | ⟨1, _⟩ => rfl)
  rw [e0, e1, e2]
  rfl

theorem v15_at (q : S128x128.Idx) : val_main_v15 (F := Ideal) q = eye (q 0) (q 1) := by
  rw [val_main_v15_apply, val_main_v14_apply, val_main_v13_apply, val_main_v10_apply, val_main_v11_apply,
    val_main_v12_apply, val_main_c_apply]
  have h0 : (q 0).val < 128 := (q 0).isLt
  have h1 : (q 1).val < 128 := (q 1).isLt
  exact uitofp_cmpi_eq_add_zero (by omega) (by omega)

theorem v18_at (q : S128x128.Idx) : val_main_v18 (F := Ideal) q = off (q 0) (q 1) := by
  rw [val_main_v18_apply, val_main_v17_apply, val_main_cst_apply, v15_at]
  rfl

theorem v16_at (q : S1x128x128x1.Idx) : val_main_v16 (F := Ideal) q = eye (q 1) (q 2) := by
  rw [val_main_v16_apply, v15_at]
  rfl

theorem v19_at (q : S1x128x128x1.Idx) : val_main_v19 (F := Ideal) q = off (q 1) (q 2) := by
  rw [val_main_v19_apply, v18_at]
  rfl

/-- The sum down a column of the entries kept only on the diagonal is the column's diagonal entry. -/
theorem v26_at (q : S8x128x64.Idx) :
    val_main_v26 (F := Ideal) x0 x1 q = diag (arr x0 (q 0)) (wt x1 (q 0)) (q 1) (q 2) := by
  rw [val_main_v26_apply, val_main_cst_1_apply]
  have hs : ∀ k : Fin 128, val_main_v25 (F := Ideal) x0 x1 (idx_main_v26 q k)
      = if k.val = (q 1).val then masked (arr x0 (q 0)) (wt x1 (q 0)) k (q 1) (q 2) else 0 := by
    intro k
    have hk : k.val < 128 := k.isLt
    have h1 : (q 1).val < 128 := (q 1).isLt
    rw [val_main_v25_apply, val_main_v23_apply, val_main_v22_apply, val_main_v20_apply, val_main_v21_apply,
      val_main_v24_apply, val_main_cst_0_apply, v8_at]
    refine (select_cmpi_eq (n := k.val) (m := (q 1).val) (by omega) (by omega) _ _).trans ?_
    exact if_congr Iff.rfl rfl Ideal.ofBits_zero_f32
  simp only [hs]
  rw [sum_ite_val (fun k => masked (arr x0 (q 0)) (wt x1 (q 0)) k (q 1) (q 2)) (q 1)]
  show Ideal.ofBits .f32 0x00000000#32 + _ = _
  rw [Ideal.ofBits_zero_f32, zero_add]
  rfl

theorem v28_at (q : S8x128x64.Idx) :
    val_main_v28 (F := Ideal) x0 x1 q = rowOff (arr x0 (q 0)) (wt x1 (q 0)) (q 1) (q 2) := by
  rw [val_main_v28_apply, val_main_v27_apply, val_main_cst_2_apply, v26_at]
  simp only [v8_at]
  show (Ideal.ofBits .f32 0x00000000#32 + _) - _ = _
  rw [Ideal.ofBits_zero_f32, zero_add]
  rfl

theorem v30_at (q : S8x128x64.Idx) :
    val_main_v30 (F := Ideal) x0 x1 q = colOff (arr x0 (q 0)) (wt x1 (q 0)) (q 1) (q 2) := by
  rw [val_main_v30_apply, val_main_v29_apply, val_main_cst_3_apply, v26_at]
  simp only [v8_at]
  show (Ideal.ofBits .f32 0x00000000#32 + _) - _ = _
  rw [Ideal.ofBits_zero_f32, zero_add]
  rfl

theorem v31_at (q : S8x64.Idx) :
    val_main_v31 (F := Ideal) x0 x1 q = trace (arr x0 (q 0)) (wt x1 (q 0)) (q 1) := by
  rw [val_main_v31_apply, val_main_cst_4_apply]
  simp only [v26_at]
  show Ideal.ofBits .f32 0x00000000#32 + _ = _
  rw [Ideal.ofBits_zero_f32, zero_add]
  rfl

/-- The sum over both node axes at once is the sum over the columns of the column sums. -/
theorem v32_at (b : Fin 8) (d : Fin 64) :
    val_main_v32 (F := Ideal) x0 x1 (ix2 b d) = ∑ l : Fin 128, ∑ k : Fin 128, masked (arr x0 b) (wt x1 b) k l d := by
  unfold val_main_v32
  show Ideal.ofBits .f32 0x00000000#32
      + ∑ i ∈ Finset.univ.filter (fun i => (Shape.ReducesTo.drop reducesTo_S8x128x128x64_S8x64_d1_2) i = ix2 b d),
          val_main_v8 (F := Ideal) x0 x1 i = _
  rw [Ideal.ofBits_zero_f32, zero_add,
    sum_filter_drop_mid2 (Shape.ReducesTo.drop reducesTo_S8x128x128x64_S8x64_d1_2)
      (fun i => Shape.ReducesTo.drop_apply_val_of_eq reducesTo_S8x128x128x64_S8x64_d1_2 i 0 0)
      (fun i => Shape.ReducesTo.drop_apply_val_of_eq reducesTo_S8x128x128x64_S8x64_d1_2 i 1 3)]
  simp only [v8_at]

theorem v33_at (q : S8x64.Idx) :
    val_main_v33 (F := Ideal) x0 x1 q = offSum (arr x0 (q 0)) (wt x1 (q 0)) (q 1) := by
  have h : val_main_v32 (F := Ideal) x0 x1 q
      = ∑ l : Fin 128, ∑ k : Fin 128, masked (arr x0 (q 0)) (wt x1 (q 0)) k l (q 1) :=
    (congrArg (val_main_v32 (F := Ideal) x0 x1) (eq_ix2 q)).trans (v32_at x0 x1 (q 0) (q 1))
  rw [val_main_v33_apply, v31_at, h]
  rfl

/-! ## The fifteen arrays set side by side -/

theorem piece0_at (q : S8x128x128x64.Idx) :
    val_main_v35 (F := Ideal) x0 x1 q = term (arr x0 (q 0)) (wt x1 (q 0)) ⟨0, by decide⟩ (q 1) (q 2) (q 3) := by
  simp only [val_main_v35_apply, val_main_v34_apply, v8_at, v16_at]
  rfl

theorem piece1_at (q : S8x128x128x64.Idx) :
    val_main_v37 (F := Ideal) x0 x1 q = term (arr x0 (q 0)) (wt x1 (q 0)) ⟨1, by decide⟩ (q 1) (q 2) (q 3) := by
  simp only [val_main_v37_apply, val_main_v36_apply, v8_at, v19_at]
  rfl

theorem piece2_at (q : S8x128x128x64.Idx) :
    val_main_v39 (F := Ideal) x0 x1 q = term (arr x0 (q 0)) (wt x1 (q 0)) ⟨2, by decide⟩ (q 1) (q 2) (q 3) := by
  simp only [val_main_v39_apply, val_main_v9_apply, val_main_v38_apply, v8_at, v19_at]
  rfl

theorem piece3_at (q : S8x128x128x64.Idx) :
    val_main_v43 (F := Ideal) x0 x1 q = term (arr x0 (q 0)) (wt x1 (q 0)) ⟨3, by decide⟩ (q 1) (q 2) (q 3) := by
  simp only [val_main_v43_apply, val_main_v41_apply, val_main_v40_apply, val_main_v42_apply, v26_at, v19_at]
  rfl

theorem piece4_at (q : S8x128x128x64.Idx) :
    val_main_v47 (F := Ideal) x0 x1 q = term (arr x0 (q 0)) (wt x1 (q 0)) ⟨4, by decide⟩ (q 1) (q 2) (q 3) := by
  simp only [val_main_v47_apply, val_main_v45_apply, val_main_v44_apply, val_main_v46_apply, v26_at, v19_at]
  rfl

theorem piece5_at (q : S8x128x128x64.Idx) :
    val_main_v51 (F := Ideal) x0 x1 q = term (arr x0 (q 0)) (wt x1 (q 0)) ⟨5, by decide⟩ (q 1) (q 2) (q 3) := by
  simp only [val_main_v51_apply, val_main_v49_apply, val_main_v48_apply, val_main_v50_apply, v28_at, v16_at]
  rfl

theorem piece6_at (q : S8x128x128x64.Idx) :
    val_main_v55 (F := Ideal) x0 x1 q = term (arr x0 (q 0)) (wt x1 (q 0)) ⟨6, by decide⟩ (q 1) (q 2) (q 3) := by
  simp only [val_main_v55_apply, val_main_v53_apply, val_main_v52_apply, val_main_v54_apply, v30_at, v16_at]
  rfl

theorem piece7_at (q : S8x128x128x64.Idx) :
    val_main_v60 (F := Ideal) x0 x1 q = term (arr x0 (q 0)) (wt x1 (q 0)) ⟨7, by decide⟩ (q 1) (q 2) (q 3) := by
  simp only [val_main_v60_apply, val_main_v58_apply, val_main_v57_apply, val_main_v56_apply, val_main_v9_apply, val_main_v59_apply, v28_at, v8_at, v19_at]
  rfl

theorem piece8_at (q : S8x128x128x64.Idx) :
    val_main_v65 (F := Ideal) x0 x1 q = term (arr x0 (q 0)) (wt x1 (q 0)) ⟨8, by decide⟩ (q 1) (q 2) (q 3) := by
  simp only [val_main_v65_apply, val_main_v63_apply, val_main_v62_apply, val_main_v61_apply, val_main_v9_apply, val_main_v64_apply, v30_at, v8_at, v19_at]
  rfl

theorem piece9_at (q : S8x128x128x64.Idx) :
    val_main_v70 (F := Ideal) x0 x1 q = term (arr x0 (q 0)) (wt x1 (q 0)) ⟨9, by decide⟩ (q 1) (q 2) (q 3) := by
  simp only [val_main_v70_apply, val_main_v68_apply, val_main_v67_apply, val_main_v66_apply, val_main_v69_apply, v30_at, v8_at, v19_at]
  rfl

theorem piece10_at (q : S8x128x128x64.Idx) :
    val_main_v75 (F := Ideal) x0 x1 q = term (arr x0 (q 0)) (wt x1 (q 0)) ⟨10, by decide⟩ (q 1) (q 2) (q 3) := by
  simp only [val_main_v75_apply, val_main_v73_apply, val_main_v72_apply, val_main_v71_apply, val_main_v74_apply, v28_at, v8_at, v19_at]
  rfl

theorem piece11_at (q : S8x128x128x64.Idx) :
    val_main_v82 (F := Ideal) x0 x1 q = term (arr x0 (q 0)) (wt x1 (q 0)) ⟨11, by decide⟩ (q 1) (q 2) (q 3) := by
  simp only [val_main_v82_apply, val_main_v80_apply, val_main_v79_apply, val_main_v78_apply, val_main_v77_apply, val_main_v76_apply, val_main_v81_apply, v31_at, v26_at, v16_at]
  rfl

theorem piece12_at (q : S8x128x128x64.Idx) :
    val_main_v90 (F := Ideal) x0 x1 q = term (arr x0 (q 0)) (wt x1 (q 0)) ⟨12, by decide⟩ (q 1) (q 2) (q 3) := by
  simp only [val_main_v90_apply, val_main_v88_apply, val_main_v87_apply, val_main_v86_apply, val_main_v85_apply, val_main_v84_apply, val_main_v83_apply, val_main_v89_apply, v33_at, v28_at, v30_at, v16_at]
  rfl

theorem piece13_at (q : S8x128x128x64.Idx) :
    val_main_v100 (F := Ideal) x0 x1 q = term (arr x0 (q 0)) (wt x1 (q 0)) ⟨13, by decide⟩ (q 1) (q 2) (q 3) := by
  simp only [val_main_v100_apply, val_main_v98_apply, val_main_v96_apply, val_main_v94_apply, val_main_v93_apply, val_main_v91_apply, val_main_v92_apply, val_main_v97_apply, val_main_v95_apply, val_main_v99_apply, v31_at, v26_at, v19_at]
  rfl

theorem piece14_at (q : S8x128x128x64.Idx) :
    val_main_v118 (F := Ideal) x0 x1 q = term (arr x0 (q 0)) (wt x1 (q 0)) ⟨14, by decide⟩ (q 1) (q 2) (q 3) := by
  simp only [val_main_v118_apply, val_main_v116_apply, val_main_v115_apply, val_main_v114_apply, val_main_v111_apply, val_main_v108_apply, val_main_v106_apply, val_main_v104_apply, val_main_v103_apply, val_main_v101_apply, val_main_v102_apply, val_main_v107_apply, val_main_v105_apply, val_main_v110_apply, val_main_v109_apply, val_main_v113_apply, val_main_v112_apply, val_main_v9_apply, val_main_v117_apply, v33_at, v28_at, v30_at, v8_at, v19_at]
  rfl

theorem cat0_at (q : S8x128x128x64.Idx) (d : Fin 64) (kk : Fin 960) (hk : kk.val = 0 * 64 + d.val) :
    val_main_v119 (F := Ideal) x0 x1 (lidx_main_v120 q kk)
      = term (arr x0 (q 0)) (wt x1 (q 0)) ⟨0, by decide⟩ (q 1) (q 2) d := by
  unfold val_main_v119
  exact (concatenate_apply_piece _ _ _ (lidx_main_v120 q kk) 0 (by show (0 : ℕ) < 15; decide) S8x128x128x64
    (val_main_v35 (F := Ideal) x0 x1) rfl rfl (0 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 0 * 64 + d.val = kk.val; omega)).trans (piece0_at x0 x1 (ix4 (q 0) (q 1) (q 2) d))

theorem cat1_at (q : S8x128x128x64.Idx) (d : Fin 64) (kk : Fin 960) (hk : kk.val = 1 * 64 + d.val) :
    val_main_v119 (F := Ideal) x0 x1 (lidx_main_v120 q kk)
      = term (arr x0 (q 0)) (wt x1 (q 0)) ⟨1, by decide⟩ (q 1) (q 2) d := by
  unfold val_main_v119
  exact (concatenate_apply_piece _ _ _ (lidx_main_v120 q kk) 1 (by show (1 : ℕ) < 15; decide) S8x128x128x64
    (val_main_v37 (F := Ideal) x0 x1) rfl rfl (1 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 1 * 64 + d.val = kk.val; omega)).trans (piece1_at x0 x1 (ix4 (q 0) (q 1) (q 2) d))

theorem cat2_at (q : S8x128x128x64.Idx) (d : Fin 64) (kk : Fin 960) (hk : kk.val = 2 * 64 + d.val) :
    val_main_v119 (F := Ideal) x0 x1 (lidx_main_v120 q kk)
      = term (arr x0 (q 0)) (wt x1 (q 0)) ⟨2, by decide⟩ (q 1) (q 2) d := by
  unfold val_main_v119
  exact (concatenate_apply_piece _ _ _ (lidx_main_v120 q kk) 2 (by show (2 : ℕ) < 15; decide) S8x128x128x64
    (val_main_v39 (F := Ideal) x0 x1) rfl rfl (2 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 2 * 64 + d.val = kk.val; omega)).trans (piece2_at x0 x1 (ix4 (q 0) (q 1) (q 2) d))

theorem cat3_at (q : S8x128x128x64.Idx) (d : Fin 64) (kk : Fin 960) (hk : kk.val = 3 * 64 + d.val) :
    val_main_v119 (F := Ideal) x0 x1 (lidx_main_v120 q kk)
      = term (arr x0 (q 0)) (wt x1 (q 0)) ⟨3, by decide⟩ (q 1) (q 2) d := by
  unfold val_main_v119
  exact (concatenate_apply_piece _ _ _ (lidx_main_v120 q kk) 3 (by show (3 : ℕ) < 15; decide) S8x128x128x64
    (val_main_v43 (F := Ideal) x0 x1) rfl rfl (3 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 3 * 64 + d.val = kk.val; omega)).trans (piece3_at x0 x1 (ix4 (q 0) (q 1) (q 2) d))

theorem cat4_at (q : S8x128x128x64.Idx) (d : Fin 64) (kk : Fin 960) (hk : kk.val = 4 * 64 + d.val) :
    val_main_v119 (F := Ideal) x0 x1 (lidx_main_v120 q kk)
      = term (arr x0 (q 0)) (wt x1 (q 0)) ⟨4, by decide⟩ (q 1) (q 2) d := by
  unfold val_main_v119
  exact (concatenate_apply_piece _ _ _ (lidx_main_v120 q kk) 4 (by show (4 : ℕ) < 15; decide) S8x128x128x64
    (val_main_v47 (F := Ideal) x0 x1) rfl rfl (4 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 4 * 64 + d.val = kk.val; omega)).trans (piece4_at x0 x1 (ix4 (q 0) (q 1) (q 2) d))

theorem cat5_at (q : S8x128x128x64.Idx) (d : Fin 64) (kk : Fin 960) (hk : kk.val = 5 * 64 + d.val) :
    val_main_v119 (F := Ideal) x0 x1 (lidx_main_v120 q kk)
      = term (arr x0 (q 0)) (wt x1 (q 0)) ⟨5, by decide⟩ (q 1) (q 2) d := by
  unfold val_main_v119
  exact (concatenate_apply_piece _ _ _ (lidx_main_v120 q kk) 5 (by show (5 : ℕ) < 15; decide) S8x128x128x64
    (val_main_v51 (F := Ideal) x0 x1) rfl rfl (5 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 5 * 64 + d.val = kk.val; omega)).trans (piece5_at x0 x1 (ix4 (q 0) (q 1) (q 2) d))

theorem cat6_at (q : S8x128x128x64.Idx) (d : Fin 64) (kk : Fin 960) (hk : kk.val = 6 * 64 + d.val) :
    val_main_v119 (F := Ideal) x0 x1 (lidx_main_v120 q kk)
      = term (arr x0 (q 0)) (wt x1 (q 0)) ⟨6, by decide⟩ (q 1) (q 2) d := by
  unfold val_main_v119
  exact (concatenate_apply_piece _ _ _ (lidx_main_v120 q kk) 6 (by show (6 : ℕ) < 15; decide) S8x128x128x64
    (val_main_v55 (F := Ideal) x0 x1) rfl rfl (6 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 6 * 64 + d.val = kk.val; omega)).trans (piece6_at x0 x1 (ix4 (q 0) (q 1) (q 2) d))

theorem cat7_at (q : S8x128x128x64.Idx) (d : Fin 64) (kk : Fin 960) (hk : kk.val = 7 * 64 + d.val) :
    val_main_v119 (F := Ideal) x0 x1 (lidx_main_v120 q kk)
      = term (arr x0 (q 0)) (wt x1 (q 0)) ⟨7, by decide⟩ (q 1) (q 2) d := by
  unfold val_main_v119
  exact (concatenate_apply_piece _ _ _ (lidx_main_v120 q kk) 7 (by show (7 : ℕ) < 15; decide) S8x128x128x64
    (val_main_v60 (F := Ideal) x0 x1) rfl rfl (7 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 7 * 64 + d.val = kk.val; omega)).trans (piece7_at x0 x1 (ix4 (q 0) (q 1) (q 2) d))

set_option maxHeartbeats 2000000 in
theorem cat8_at (q : S8x128x128x64.Idx) (d : Fin 64) (kk : Fin 960) (hk : kk.val = 8 * 64 + d.val) :
    val_main_v119 (F := Ideal) x0 x1 (lidx_main_v120 q kk)
      = term (arr x0 (q 0)) (wt x1 (q 0)) ⟨8, by decide⟩ (q 1) (q 2) d := by
  unfold val_main_v119
  exact (concatenate_apply_piece _ _ _ (lidx_main_v120 q kk) 8 (by show (8 : ℕ) < 15; decide) S8x128x128x64
    (val_main_v65 (F := Ideal) x0 x1) rfl rfl (8 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 8 * 64 + d.val = kk.val; omega)).trans (piece8_at x0 x1 (ix4 (q 0) (q 1) (q 2) d))

set_option maxHeartbeats 2000000 in
theorem cat9_at (q : S8x128x128x64.Idx) (d : Fin 64) (kk : Fin 960) (hk : kk.val = 9 * 64 + d.val) :
    val_main_v119 (F := Ideal) x0 x1 (lidx_main_v120 q kk)
      = term (arr x0 (q 0)) (wt x1 (q 0)) ⟨9, by decide⟩ (q 1) (q 2) d := by
  unfold val_main_v119
  exact (concatenate_apply_piece _ _ _ (lidx_main_v120 q kk) 9 (by show (9 : ℕ) < 15; decide) S8x128x128x64
    (val_main_v70 (F := Ideal) x0 x1) rfl rfl (9 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 9 * 64 + d.val = kk.val; omega)).trans (piece9_at x0 x1 (ix4 (q 0) (q 1) (q 2) d))

set_option maxHeartbeats 2000000 in
theorem cat10_at (q : S8x128x128x64.Idx) (d : Fin 64) (kk : Fin 960) (hk : kk.val = 10 * 64 + d.val) :
    val_main_v119 (F := Ideal) x0 x1 (lidx_main_v120 q kk)
      = term (arr x0 (q 0)) (wt x1 (q 0)) ⟨10, by decide⟩ (q 1) (q 2) d := by
  unfold val_main_v119
  exact (concatenate_apply_piece _ _ _ (lidx_main_v120 q kk) 10 (by show (10 : ℕ) < 15; decide) S8x128x128x64
    (val_main_v75 (F := Ideal) x0 x1) rfl rfl (10 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 10 * 64 + d.val = kk.val; omega)).trans (piece10_at x0 x1 (ix4 (q 0) (q 1) (q 2) d))

set_option maxHeartbeats 2000000 in
theorem cat11_at (q : S8x128x128x64.Idx) (d : Fin 64) (kk : Fin 960) (hk : kk.val = 11 * 64 + d.val) :
    val_main_v119 (F := Ideal) x0 x1 (lidx_main_v120 q kk)
      = term (arr x0 (q 0)) (wt x1 (q 0)) ⟨11, by decide⟩ (q 1) (q 2) d := by
  unfold val_main_v119
  exact (concatenate_apply_piece _ _ _ (lidx_main_v120 q kk) 11 (by show (11 : ℕ) < 15; decide) S8x128x128x64
    (val_main_v82 (F := Ideal) x0 x1) rfl rfl (11 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 11 * 64 + d.val = kk.val; omega)).trans (piece11_at x0 x1 (ix4 (q 0) (q 1) (q 2) d))

set_option maxHeartbeats 2000000 in
theorem cat12_at (q : S8x128x128x64.Idx) (d : Fin 64) (kk : Fin 960) (hk : kk.val = 12 * 64 + d.val) :
    val_main_v119 (F := Ideal) x0 x1 (lidx_main_v120 q kk)
      = term (arr x0 (q 0)) (wt x1 (q 0)) ⟨12, by decide⟩ (q 1) (q 2) d := by
  unfold val_main_v119
  exact (concatenate_apply_piece _ _ _ (lidx_main_v120 q kk) 12 (by show (12 : ℕ) < 15; decide) S8x128x128x64
    (val_main_v90 (F := Ideal) x0 x1) rfl rfl (12 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 12 * 64 + d.val = kk.val; omega)).trans (piece12_at x0 x1 (ix4 (q 0) (q 1) (q 2) d))

set_option maxHeartbeats 2000000 in
theorem cat13_at (q : S8x128x128x64.Idx) (d : Fin 64) (kk : Fin 960) (hk : kk.val = 13 * 64 + d.val) :
    val_main_v119 (F := Ideal) x0 x1 (lidx_main_v120 q kk)
      = term (arr x0 (q 0)) (wt x1 (q 0)) ⟨13, by decide⟩ (q 1) (q 2) d := by
  unfold val_main_v119
  exact (concatenate_apply_piece _ _ _ (lidx_main_v120 q kk) 13 (by show (13 : ℕ) < 15; decide) S8x128x128x64
    (val_main_v100 (F := Ideal) x0 x1) rfl rfl (13 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 13 * 64 + d.val = kk.val; omega)).trans (piece13_at x0 x1 (ix4 (q 0) (q 1) (q 2) d))

set_option maxHeartbeats 2000000 in
theorem cat14_at (q : S8x128x128x64.Idx) (d : Fin 64) (kk : Fin 960) (hk : kk.val = 14 * 64 + d.val) :
    val_main_v119 (F := Ideal) x0 x1 (lidx_main_v120 q kk)
      = term (arr x0 (q 0)) (wt x1 (q 0)) ⟨14, by decide⟩ (q 1) (q 2) d := by
  unfold val_main_v119
  exact (concatenate_apply_piece _ _ _ (lidx_main_v120 q kk) 14 (by show (14 : ℕ) < 15; decide) S8x128x128x64
    (val_main_v118 (F := Ideal) x0 x1) rfl rfl (14 * 64) rfl (ix4 (q 0) (q 1) (q 2) d)
    (fun b hb => by
      match b with
      | ⟨0, _⟩ => rfl
      | ⟨1, _⟩ => rfl
      | ⟨2, _⟩ => rfl
      | ⟨3, _⟩ => exact absurd rfl hb)
    (by show 14 * 64 + d.val = kk.val; omega)).trans (piece14_at x0 x1 (ix4 (q 0) (q 1) (q 2) d))

/-- Column `t·64 + d` of the arrays set side by side is feature `d` of array `t`. -/
theorem cat_at (q : S8x128x128x64.Idx) (t : Fin 15) (d : Fin 64) (kk : Fin 960) (hk : kk.val = t.val * 64 + d.val) :
    val_main_v119 (F := Ideal) x0 x1 (lidx_main_v120 q kk)
      = term (arr x0 (q 0)) (wt x1 (q 0)) t (q 1) (q 2) d := by
  match t with
  | ⟨0, _⟩ => exact cat0_at x0 x1 q d kk hk
  | ⟨1, _⟩ => exact cat1_at x0 x1 q d kk hk
  | ⟨2, _⟩ => exact cat2_at x0 x1 q d kk hk
  | ⟨3, _⟩ => exact cat3_at x0 x1 q d kk hk
  | ⟨4, _⟩ => exact cat4_at x0 x1 q d kk hk
  | ⟨5, _⟩ => exact cat5_at x0 x1 q d kk hk
  | ⟨6, _⟩ => exact cat6_at x0 x1 q d kk hk
  | ⟨7, _⟩ => exact cat7_at x0 x1 q d kk hk
  | ⟨8, _⟩ => exact cat8_at x0 x1 q d kk hk
  | ⟨9, _⟩ => exact cat9_at x0 x1 q d kk hk
  | ⟨10, _⟩ => exact cat10_at x0 x1 q d kk hk
  | ⟨11, _⟩ => exact cat11_at x0 x1 q d kk hk
  | ⟨12, _⟩ => exact cat12_at x0 x1 q d kk hk
  | ⟨13, _⟩ => exact cat13_at x0 x1 q d kk hk
  | ⟨14, _⟩ => exact cat14_at x0 x1 q d kk hk

/-- The reference's result is the layer's result of its arguments: the contraction over all `15·64` columns, cut into
    the fifteen slices. -/
theorem v120_eq (x2 : (⟨S960x64, .f32⟩ : BufTy).Contents (Elt Ideal)) :
    val_main_v120 (F := Ideal) x0 x1 x2 = result x0 x1 x2 := by
  funext q
  rw [val_main_v120_apply, sum_fin_blocks (a := 15) (b := 64) rfl]
  show _ = ∑ t : Fin 15, ∑ d : Fin 64,
    term (arr x0 (q 0)) (wt x1 (q 0)) t (q 1) (q 2) d * x2 (ix2 (wrow t d) (q 3))
  refine Finset.sum_congr rfl fun t _ => Finset.sum_congr rfl fun d _ => ?_
  rw [cat_at x0 x1 q t d _ rfl]
  refine congrArg (_ * ·) (congrArg x2 ?_)
  funext a
  match a with
  | ⟨0, _⟩ => rfl
  | ⟨1, _⟩ => rfl

end Cert.ReferenceIdeal.Terms

end
-- ==== Proof.lean ====
/-
  The fifteen-term equivariant layer: a fused kernel against the plain array program.

  Both programs take a batch of eight `128 × 128` arrays of 64-vectors, a 0/1 mask on the 128 nodes of each batch
  element and a `960 × 64` weight matrix. Each masks the array by the product of the two nodes' mask entries, takes
  from the masked array its diagonal, its row and column sums without the diagonal entry, its trace and the sum of
  its off-diagonal entries, forms from these the same fifteen arrays (each carrying a factor that selects the diagonal
  or its complement), and contracts them with the weights. The kernel handles one batch element per grid point and
  multiplies each of the fifteen arrays by its own `64 × 64` slice of the weights, adding the products one after the
  other onto zero; the other program sets the fifteen arrays side by side along the feature axis and contracts all
  960 columns at once.

  Over the extended reals the two are one function (`Cert.Layer.result`): a sum over 960 columns is the sum over the
  fifteen slices of the sums over their 64 columns; the kernel's sum of the products with the diagonal selector along
  a row, and the other program's sum down a column of the entries kept only on the diagonal, are both the diagonal
  entry; the kernel's sum of column sums and the other program's single sum over both node axes are the same terms in
  another grouping. Only the order and grouping of sums and the laws `x · 0 = 0`, `x · 1 = x`, `0 + x = x` are used, so
  no entry needs to be finite.
-/
import proofs.«122922_j17351667876255_2_alg».proof.Defs
import proofs.«122922_j17351667876255_2_alg».proof.Proof.Gen.Kernel
import proofs.«122922_j17351667876255_2_alg».proof.Proof.Gen.Kernel.Skeleton
import proofs.«122922_j17351667876255_2_alg».proof.Proof.Gen.Kernel.Launch
import proofs.«122922_j17351667876255_2_alg».proof.Proof.Gen.Kernel.Points
import proofs.«122922_j17351667876255_2_alg».proof.Proof.Gen.Kernel.Frame
import proofs.«122922_j17351667876255_2_alg».proof.Proof.Gen.KernelIdeal
import proofs.«122922_j17351667876255_2_alg».proof.Proof.Gen.KernelIdeal.Skeleton
import proofs.«122922_j17351667876255_2_alg».proof.Proof.Gen.KernelIdeal.Launch
import proofs.«122922_j17351667876255_2_alg».proof.Proof.Gen.KernelIdeal.Points
import proofs.«122922_j17351667876255_2_alg».proof.Proof.Gen.KernelIdeal.Frame
import proofs.«122922_j17351667876255_2_alg».proof.Proof.Gen.ReferenceIdeal
import proofs.«122922_j17351667876255_2_alg».proof.Proof.Gen.Pre_finite_inputs
import proofs.«122922_j17351667876255_2_alg».proof.Proof.Gen.KernelIdeal.Value
import proofs.«122922_j17351667876255_2_alg».proof.Proof.Gen.ReferenceIdeal.Run
import proofs.«122922_j17351667876255_2_alg».proof.Proof.Gen.ReferenceIdeal.Read
import proofs.«122922_j17351667876255_2_alg».proof.Proof.KernelWhole
import proofs.«122922_j17351667876255_2_alg».proof.Proof.RefTerms
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The array program has no kernel: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the layer's result of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v120_eq, Cert.ReferenceIdeal.Terms.v120_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
